-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x524288 : Shape := ⟨2, ![64, 524288]⟩
abbrev S_ : Shape := ⟨0, ![]⟩

class Facts : Prop where
  bcast_S_S64x524288 : S_.BroadcastsInDim S64x524288 (![] : Fin 0 → Fin S64x524288.rank)
  reducesTo_S64x524288_S_d0_1 : S64x524288.ReducesTo [0, 1] S_
  h_S_ : 0 < S_.numel

variable [Facts]

def fn {F : FTy → Type} [FloatOps F] (main_arg0 : FVec F S64x524288 .f32) (main_arg1 : FVec F S64x524288 .f32) : IVec S_ 1 :=
  let main_v0 : FVec F S64x524288 .f32 := Host.absf main_arg0
  let main_cst : FVec F S_ .f32 := constant S_ .f32 0x7F800000#32
  let main_v1 : FVec F S64x524288 .f32 := broadcastInDim S64x524288 ![] bcast_S_S64x524288 main_cst
  let main_v2 : IVec S64x524288 1 := cmpf .olt main_v0 main_v1
  let main_c : IVec S_ 1 := constantI S_ 1 1#1
  let main_v3 : IVec S_ 1 := (fun x v => Host.reduce IntOp.andi x v reducesTo_S64x524288_S_d0_1 h_S_) main_v2 main_c
  let main_v4 : FVec F S64x524288 .f32 := Host.absf main_arg1
  let main_cst_0 : FVec F S_ .f32 := constant S_ .f32 0x7F800000#32
  let main_v5 : FVec F S64x524288 .f32 := broadcastInDim S64x524288 ![] bcast_S_S64x524288 main_cst_0
  let main_v6 : IVec S64x524288 1 := cmpf .olt main_v4 main_v5
  let main_c_1 : IVec S_ 1 := constantI S_ 1 1#1
  let main_v7 : IVec S_ 1 := (fun x v => Host.reduce IntOp.andi x v reducesTo_S64x524288_S_d0_1 h_S_) main_v6 main_c_1
  let main_v8 : IVec S_ 1 := andi main_v3 main_v7
  main_v8
-- ==== Kernel.lean ====
abbrev S64x524288 : Shape := ⟨2, ![64, 524288]⟩
abbrev S64x32x32 : Shape := ⟨3, ![64, 32, 32]⟩
abbrev S32x16384 : Shape := ⟨2, ![32, 16384]⟩
abbrev S32x32x32 : Shape := ⟨3, ![32, 32, 32]⟩
abbrev S1x32x1 : Shape := ⟨3, ![1, 32, 1]⟩
abbrev S32x4096 : Shape := ⟨2, ![32, 4096]⟩
abbrev S32x1x4096 : Shape := ⟨3, ![32, 1, 4096]⟩
abbrev S32x32x4096 : Shape := ⟨3, ![32, 32, 4096]⟩
abbrev S_ : Shape := ⟨0, ![]⟩
abbrev S64 : Shape := ⟨1, ![64]⟩
abbrev S64x1x1 : Shape := ⟨3, ![64, 1, 1]⟩
abbrev S64x32 : Shape := ⟨2, ![64, 32]⟩
abbrev S64x32x1 : Shape := ⟨3, ![64, 32, 1]⟩
abbrev S64x1x32 : Shape := ⟨3, ![64, 1, 32]⟩

abbrev nBuf : Space → Nat
  | .hbm => 36
  | .vmem => 7
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x32x32, .f32⟩
  | .hbm, ⟨3, _⟩ => ⟨S_, .f32⟩
  | .hbm, ⟨4, _⟩ => ⟨S64, .f32⟩
  | .hbm, ⟨5, _⟩ => ⟨S64x1x1, .f32⟩
  | .hbm, ⟨6, _⟩ => ⟨S64x32x32, .f32⟩
  | .hbm, ⟨7, _⟩ => ⟨S64x32x32, .f32⟩
  | .hbm, ⟨8, _⟩ => ⟨S_, .f32⟩
  | .hbm, ⟨9, _⟩ => ⟨S64x32, .f32⟩
  | .hbm, ⟨10, _⟩ => ⟨S64x32x1, .f32⟩
  | .hbm, ⟨11, _⟩ => ⟨S_, .f32⟩
  | .hbm, ⟨12, _⟩ => ⟨S64x32, .f32⟩
  | .hbm, ⟨13, _⟩ => ⟨S64x1x32, .f32⟩
  | .hbm, ⟨14, _⟩ => ⟨S_, .f32⟩
  | .hbm, ⟨15, _⟩ => ⟨S64x32x32, .f32⟩
  | .hbm, ⟨16, _⟩ => ⟨S64x32x32, .f32⟩
  | .hbm, ⟨17, _⟩ => ⟨S_, .f32⟩
  | .hbm, ⟨18, _⟩ => ⟨S64x32x1, .f32⟩
  | .hbm, ⟨19, _⟩ => ⟨S64x32x1, .f32⟩
  | .hbm, ⟨20, _⟩ => ⟨S_, .f32⟩
  | .hbm, ⟨21, _⟩ => ⟨S64x1x32, .f32⟩
  | .hbm, ⟨22, _⟩ => ⟨S64x1x32, .f32⟩
  | .hbm, ⟨23, _⟩ => ⟨S64x32x32, .f32⟩
  | .hbm, ⟨24, _⟩ => ⟨S64x32x32, .f32⟩
  | .hbm, ⟨25, _⟩ => ⟨S64x32x32, .f32⟩
  | .hbm, ⟨26, _⟩ => ⟨S64x32x32, .f32⟩
  | .hbm, ⟨27, _⟩ => ⟨S64x32x32, .f32⟩
  | .hbm, ⟨28, _⟩ => ⟨S64x32x32, .f32⟩
  | .hbm, ⟨29, _⟩ => ⟨S_, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x32x32, .f32⟩
  | .local _ .vmem, ⟨5, _⟩ => ⟨S32x32x32, .f32⟩
  | .local _ .vmem, ⟨6, _⟩ => ⟨S32x32x32, .f32⟩
  | _, _ => ⟨S64x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v8 : BitVec 32 := Scalar.muli arg6 c1_i32_4
  let v9 : BitVec 32 := Scalar.addi c0_i32_5 v8
  let c4096_i32 : BitVec 32 := 4096#32
  let v10 : BitVec 32 := Scalar.muli v9 c4096_i32
  v10
def k0_off1 (k0_t1 : Fin k0_t1_loop.trips) : Fin 2 → Nat :=
  let c0 : Index := 0#32
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v8 : BitVec 32 := Scalar.muli arg6 c1_i32_4
  let v9 : BitVec 32 := Scalar.addi c0_i32_5 v8
  let c4096_i32 : BitVec 32 := 4096#32
  let v10 : BitVec 32 := Scalar.muli v9 c4096_i32
  let v11 : BitVec 32 := v10
  let v12 : Index := Scalar.indexCast v11
  ![0, v12.toNat]
def k0_cond2 (i : grid0.Coords) : BitVec 1 :=
  let arg1 : BitVec 32 := BitVec.ofNat 32 (i 1).val
  let c31_i32 : BitVec 32 := 31#32
  let v5 : BitVec 1 := Scalar.cmpi .eq arg1 c31_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x32x32_S32x32x32_0_0_0 : ∀ a, (![0, 0, 0] : Fin 3 → Nat) a + S32x32x32.size a ≤ S32x32x32.size a
  h_S32x32x32 : 0 < S32x32x32.numel
  shapeCasts_S32x32x32_S32x32x32 : S32x32x32.ShapeCasts S32x32x32
  iota_S1x32x1_d1_w32 : S1x32x1.Iotas .tc 32 [1]
  h_S32x4096 : 0 < S32x4096.numel
  shapeCasts_S32x4096_S32x1x4096 : S32x4096.ShapeCasts S32x1x4096
  broadcasts_S32x1x4096_S32x32x4096 : S32x1x4096.Broadcasts S32x32x4096
  broadcasts_S1x32x1_S32x32x4096 : S1x32x1.Broadcasts S32x32x4096
  natLt_1_32 : 1 < 32
  bitsLt_bf16_f32 : FTy.bits .bf16 < FTy.bits .f32
  reducesTo_S64x32x32_S64_d1_2 : S64x32x32.ReducesTo [1, 2] S64
  h_S_ : 0 < S_.numel
  bcast_S64_S64x1x1_0 : S64.BroadcastsInDim S64x1x1 (![0] : Fin 1 → Fin S64x1x1.rank)
  bcast_S64x1x1_S64x32x32_0_1_2 : S64x1x1.BroadcastsInDim S64x32x32 (![0, 1, 2] : Fin 3 → Fin S64x32x32.rank)
  reducesTo_S64x32x32_S64x32_d2 : S64x32x32.ReducesTo [2] S64x32
  bcast_S64x32_S64x32x1_0_1 : S64x32.BroadcastsInDim S64x32x1 (![0, 1] : Fin 2 → Fin S64x32x1.rank)
  reducesTo_S64x32x32_S64x32_d1 : S64x32x32.ReducesTo [1] S64x32
  bcast_S64x32_S64x1x32_0_2 : S64x32.BroadcastsInDim S64x1x32 (![0, 2] : Fin 2 → Fin S64x1x32.rank)
  bcast_S_S64x32x32 : S_.BroadcastsInDim S64x32x32 (![] : Fin 0 → Fin S64x32x32.rank)
  bcast_S_S64x32x1 : S_.BroadcastsInDim S64x32x1 (![] : Fin 0 → Fin S64x32x1.rank)
  bcast_S_S64x1x32 : S_.BroadcastsInDim S64x1x32 (![] : Fin 0 → Fin S64x1x32.rank)
  bcast_S64x32x1_S64x32x32_0_1_2 : S64x32x1.BroadcastsInDim S64x32x32 (![0, 1, 2] : Fin 3 → Fin S64x32x32.rank)
  bcast_S64x1x32_S64x32x32_0_1_2 : S64x1x32.BroadcastsInDim S64x32x32 (![0, 1, 2] : Fin 3 → Fin S64x32x32.rank)
  reducesTo_S64_S_d0 : S64.ReducesTo [0] S_
  dot_S32x32x4096_S32x32x4096_S32x32x32_2_2_1_1_0_0_wf : DotDims.WF S32x32x4096 S32x32x4096 S32x32x32 [2] [2] [1] [1] [0] [0]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S32x4096.size a ≤ S32x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S64x524288.size a
  hwx0_0 : ∀ i : grid0.Coords, EltTy.bits .f32 = 32 ∨ (Rect.block (s := S64x524288) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S64x524288.size a
  hwx0_1 : ∀ i : grid0.Coords, EltTy.bits .f32 = 32 ∨ (Rect.block (s := S64x524288) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32x32.size a ≤ S64x32x32.size a
  hwx0_2 : ∀ i : grid0.Coords, EltTy.bits .f32 = 32 ∨ (Rect.block (s := S64x32x32) S32x32x32.size (cc0_transform_2 i) (hinb0_2 i)).WholeWords (EltTy.packing .f32)

variable [Facts₀]

def dot_S32x32x4096_S32x32x4096_S32x32x32_2_2_1_1_0_0 : DotDims S32x32x4096 S32x32x4096 S32x32x32 where
  lhsContracting := [2]
  rhsContracting := [2]
  lhsNonContracting := [1]
  rhsNonContracting := [1]
  lhsBatch := [0]
  rhsBatch := [0]
  wf := dot_S32x32x4096_S32x32x4096_S32x32x32_2_2_1_1_0_0_wf

abbrev win0_0 : Pipeline.Window sig grid0 :=
  Pipeline.Window.ofSpec (Memref.whole main_arg0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x524288 : Shape := ⟨2, ![64, 524288]⟩
abbrev S_ : Shape := ⟨0, ![]⟩
abbrev S64 : Shape := ⟨1, ![64]⟩
abbrev S64x1 : Shape := ⟨2, ![64, 1]⟩
abbrev S33554432 : Shape := ⟨1, ![33554432]⟩
abbrev S65536 : Shape := ⟨1, ![65536]⟩
abbrev S33554432x1 : Shape := ⟨2, ![33554432, 1]⟩
abbrev S64x32x32 : Shape := ⟨3, ![64, 32, 32]⟩
abbrev S64x1x1 : Shape := ⟨3, ![64, 1, 1]⟩
abbrev S64x32 : Shape := ⟨2, ![64, 32]⟩
abbrev S64x32x1 : Shape := ⟨3, ![64, 32, 1]⟩
abbrev S64x1x32 : Shape := ⟨3, ![64, 1, 32]⟩

abbrev nBuf : Space → Nat
  | .hbm => 93
  | .vmem => 0
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S_, .f32⟩
  | .hbm, ⟨3, _⟩ => ⟨S64x524288, .f32⟩
  | .hbm, ⟨4, _⟩ => ⟨S64x524288, .i1⟩
  | .hbm, ⟨5, _⟩ => ⟨S_, .f32⟩
  | .hbm, ⟨6, _⟩ => ⟨S64x524288, .f32⟩
  | .hbm, ⟨7, _⟩ => ⟨S64x524288, .i1⟩
  | .hbm, ⟨8, _⟩ => ⟨S64x524288, .i1⟩
  | .hbm, ⟨9, _⟩ => ⟨S_, .f32⟩
  | .hbm, ⟨10, _⟩ => ⟨S64x524288, .f32⟩
  | .hbm, ⟨11, _⟩ => ⟨S64x524288, .i1⟩
  | .hbm, ⟨12, _⟩ => ⟨S64x524288, .i1⟩
  | .hbm, ⟨13, _⟩ => ⟨S_, .f32⟩
  | .hbm, ⟨14, _⟩ => ⟨S64x524288, .f32⟩
  | .hbm, ⟨15, _⟩ => ⟨S64x524288, .i1⟩
  | .hbm, ⟨16, _⟩ => ⟨S64x524288, .i1⟩
  | .hbm, ⟨17, _⟩ => ⟨S_, .f32⟩
  | .hbm, ⟨18, _⟩ => ⟨S64x524288, .f32⟩
  | .hbm, ⟨19, _⟩ => ⟨S64x524288, .f32⟩
  | .hbm, ⟨20, _⟩ => ⟨S64x524288, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x524288, .i32⟩
  | .hbm, ⟨25, _⟩ => ⟨S64x524288, .i32⟩
  | .hbm, ⟨26, _⟩ => ⟨S_, .i32⟩
  | .hbm, ⟨27, _⟩ => ⟨S64x524288, .i32⟩
  | .hbm, ⟨28, _⟩ => ⟨S64x524288, .i32⟩
  | .hbm, ⟨29, _⟩ => ⟨S_, .f32⟩
  | .hbm, ⟨30, _⟩ => ⟨S64x524288, .f32⟩
  | .hbm, ⟨31, _⟩ => ⟨S64x524288, .f32⟩
  | .hbm, ⟨32, _⟩ => ⟨S64x524288, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64x524288, .i32⟩
  | .hbm, ⟨37, _⟩ => ⟨S64x524288, .i32⟩
  | .hbm, ⟨38, _⟩ => ⟨S_, .i32⟩
  | .hbm, ⟨39, _⟩ => ⟨S64x524288, .i32⟩
  | .hbm, ⟨40, _⟩ => ⟨S64x524288, .i32⟩
  | .hbm, ⟨41, _⟩ => ⟨S64, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S_, .i32⟩
  | .hbm, ⟨47, _⟩ => ⟨S64x524288, .i32⟩
  | .hbm, ⟨48, _⟩ => ⟨S64x524288, .i32⟩
  | .hbm, ⟨49, _⟩ => ⟨S64x524288, .i32⟩
  | .hbm, ⟨50, _⟩ => ⟨S64x524288, .i32⟩
  | .hbm, ⟨51, _⟩ => ⟨S64x524288, .i32⟩
  | .hbm, ⟨52, _⟩ => ⟨S64x524288, .f32⟩
  | .hbm, ⟨53, _⟩ => ⟨S33554432, .f32⟩
  | .hbm, ⟨54, _⟩ => ⟨S33554432, .i32⟩
  | .hbm, ⟨55, _⟩ => ⟨S_, .f32⟩
  | .hbm, ⟨56, _⟩ => ⟨S65536, .f32⟩
  | .hbm, ⟨57, _⟩ => ⟨S33554432x1, .i32⟩
  | .hbm, ⟨58, _⟩ => ⟨S65536, .f32⟩
  | .hbm, ⟨59, _⟩ => ⟨S64x32x32, .f32⟩
  | .hbm, ⟨60, _⟩ => ⟨S_, .f32⟩
  | .hbm, ⟨61, _⟩ => ⟨S64, .f32⟩
  | .hbm, ⟨62, _⟩ => ⟨S64x1x1, .f32⟩
  | .hbm, ⟨63, _⟩ => ⟨S64x32x32, .f32⟩
  | .hbm, ⟨64, _⟩ => ⟨S64x32x32, .f32⟩
  | .hbm, ⟨65, _⟩ => ⟨S_, .f32⟩
  | .hbm, ⟨66, _⟩ => ⟨S64x32, .f32⟩
  | .hbm, ⟨67, _⟩ => ⟨S64x32x1, .f32⟩
  | .hbm, ⟨68, _⟩ => ⟨S_, .f32⟩
  | .hbm, ⟨69, _⟩ => ⟨S64x32, .f32⟩
  | .hbm, ⟨70, _⟩ => ⟨S64x1x32, .f32⟩
  | .hbm, ⟨71, _⟩ => ⟨S_, .f32⟩
  | .hbm, ⟨72, _⟩ => ⟨S64x32x32, .f32⟩
  | .hbm, ⟨73, _⟩ => ⟨S64x32x32, .f32⟩
  | .hbm, ⟨74, _⟩ => ⟨S_, .f32⟩
  | .hbm, ⟨75, _⟩ => ⟨S64x32x1, .f32⟩
  | .hbm, ⟨76, _⟩ => ⟨S64x32x1, .f32⟩
  | .hbm, ⟨77, _⟩ => ⟨S_, .f32⟩
  | .hbm, ⟨78, _⟩ => ⟨S64x1x32, .f32⟩
  | .hbm, ⟨79, _⟩ => ⟨S64x1x32, .f32⟩
  | .hbm, ⟨80, _⟩ => ⟨S64x32x32, .f32⟩
  | .hbm, ⟨81, _⟩ => ⟨S64x32x32, .f32⟩
  | .hbm, ⟨82, _⟩ => ⟨S64x32x32, .f32⟩
  | .hbm, ⟨83, _⟩ => ⟨S64x32x32, .f32⟩
  | .hbm, ⟨84, _⟩ => ⟨S64x32x32, .f32⟩
  | .hbm, ⟨85, _⟩ => ⟨S64x32x32, .f32⟩
  | .hbm, ⟨86, _⟩ => ⟨S_, .f32⟩
  | .hbm, ⟨87, _⟩ => ⟨S64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S64x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_c_7 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_8 : Ref sig .tc := ⟨.hbm, 43, rfl⟩
abbrev main_v21 : Ref sig .tc := ⟨.hbm, 44, rfl⟩
abbrev main_v22 : Ref sig .tc := ⟨.hbm, 45, rfl⟩
abbrev main_c_9 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_v40 : Ref sig .tc := ⟨.hbm, 67, rfl⟩
abbrev main_cst_13 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_17 : Ref sig .tc := ⟨.hbm, 86, rfl⟩
abbrev main_v55 : Ref sig .tc := ⟨.hbm, 87, rfl⟩
abbrev main_cst_18 : Ref sig .tc := ⟨.hbm, 88, rfl⟩
abbrev main_v56 : Ref sig .tc := ⟨.hbm, 89, rfl⟩
abbrev main_cst_19 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]

class Facts₀ : Prop where
  bcast_S_S64x524288 : S_.BroadcastsInDim S64x524288 (![] : Fin 0 → Fin S64x524288.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x524288_0_1 : S64x1.BroadcastsInDim S64x524288 (![0, 1] : Fin 2 → Fin S64x524288.rank)
  shapeCasts_S64x524288_S33554432 : S64x524288.ShapeCasts S33554432
  bcast_S_S65536 : S_.BroadcastsInDim S65536 (![] : Fin 0 → Fin S65536.rank)
  bcast_S33554432_S33554432x1_0 : S33554432.BroadcastsInDim S33554432x1 (![0] : Fin 1 → Fin S33554432x1.rank)
  shapeCasts_S65536_S64x32x32 : S65536.ShapeCasts S64x32x32
  reducesTo_S64x32x32_S64_d1_2 : S64x32x32.ReducesTo [1, 2] S64
  h_S_ : 0 < S_.numel
  bcast_S64_S64x1x1_0 : S64.BroadcastsInDim S64x1x1 (![0] : Fin 1 → Fin S64x1x1.rank)
  bcast_S64x1x1_S64x32x32_0_1_2 : S64x1x1.BroadcastsInDim S64x32x32 (![0, 1, 2] : Fin 3 → Fin S64x32x32.rank)
  reducesTo_S64x32x32_S64x32_d2 : S64x32x32.ReducesTo [2] S64x32
  bcast_S64x32_S64x32x1_0_1 : S64x32.BroadcastsInDim S64x32x1 (![0, 1] : Fin 2 → Fin S64x32x1.rank)
  reducesTo_S64x32x32_S64x32_d1 : S64x32x32.ReducesTo [1] S64x32
  bcast_S64x32_S64x1x32_0_2 : S64x32.BroadcastsInDim S64x1x32 (![0, 2] : Fin 2 → Fin S64x1x32.rank)
  bcast_S_S64x32x32 : S_.BroadcastsInDim S64x32x32 (![] : Fin 0 → Fin S64x32x32.rank)
  bcast_S_S64x32x1 : S_.BroadcastsInDim S64x32x1 (![] : Fin 0 → Fin S64x32x1.rank)
  bcast_S_S64x1x32 : S_.BroadcastsInDim S64x1x32 (![] : Fin 0 → Fin S64x1x32.rank)
  bcast_S64x32x1_S64x32x32_0_1_2 : S64x32x1.BroadcastsInDim S64x32x32 (![0, 1, 2] : Fin 3 → Fin S64x32x32.rank)
  bcast_S64x1x32_S64x32x32_0_1_2 : S64x1x32.BroadcastsInDim S64x32x32 (![0, 1, 2] : Fin 3 → Fin S64x32x32.rank)
  reducesTo_S64_S_d0 : S64.ReducesTo [0] S_
  scatter_S65536_S33554432x1_S33554432_n_0_0_1_wf : ScatterDims.WF S65536 S33554432x1 S33554432 [] [0] [0] 1

variable [Facts₀]

def scatter_S65536_S33554432x1_S33554432_n_0_0_1 : ScatterDims S65536 S33554432x1 S33554432 where
  updateWindowDims := []
  insertedWindowDims := [0]
  scatterDimsToOperandDims := [0]
  indexVectorDim := 1
  wf := scatter_S65536_S33554432x1_S33554432_n_0_0_1_wf

class Facts : Prop extends Facts₀ where

variable [Facts]
-- ==== Proof.Pieces.lean ====
/-
  What one grid point of the histogram kernel leaves in its accumulator, as a pure function.

  A point's two staged blocks are [32, 16384]; the body walks them in four chunks of 4096
  columns. Each chunk adds to the [32, 32, 32] accumulator the product of the two one-hot
  encodings of the chunk (one matrix product per batch row). So the accumulator after the body is
  the four-fold iterate of "add the chunk's product", started from what the body found there:
  zeros at the first point of a batch block, the previous point's result otherwise. At the last
  point of a batch block the output block receives a copy of the accumulator.
-/
import proofs.«166714_j69106023792751_2_alg».proof.Proof.Gen.KernelIdeal.Frame
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.Sem

variable {F : FTy → Type} [FloatOps F]

/-- The bin-id template: the iota along the middle axis of [1, 32, 1]. -/
abbrev ids : IVec S1x32x1 32 := iota .tc S1x32x1 32 [1] iota_S1x32x1_d1_w32

/-- Chunk k of a staged block: its 4096 columns from column 4096·k on. -/
def chunk (k : Fin k0_t1_loop.trips) (x : Vec F S32x16384 .f32) : Vec F S32x4096 .f32 :=
  View.ld x (Rect.unit (s := S32x16384) (k0_off1 k) S32x4096.size (k0_off1_inb k))

/-- One chunk's update of the accumulator: z plus the chunk's one-hot product. -/
def step (x0 x1 : Vec F S32x16384 .f32) (k : Fin k0_t1_loop.trips) (z : Vec F S32x32x32 .f32) : Vec F S32x32x32 .f32 :=
  k0_pay2 (k0_pay3 ids (chunk k x0) (chunk k x1)) (k0_pay4 (chunk k x1)) z

/-- The accumulator after the first k chunks, started from z. -/
def accUpTo (x0 x1 : Vec F S32x16384 .f32) (z : Vec F S32x32x32 .f32) : ℕ → Vec F S32x32x32 .f32
  | 0 => z
  | k + 1 => if h : k < k0_t1_loop.trips then step x0 x1 ⟨k, h⟩ (accUpTo x0 x1 z k) else accUpTo x0 x1 z k

theorem accUpTo_succ (x0 x1 : Vec F S32x16384 .f32) (z : Vec F S32x32x32 .f32) (k : ℕ) (h : k < k0_t1_loop.trips) :
    accUpTo x0 x1 z (k + 1) = step x0 x1 ⟨k, h⟩ (accUpTo x0 x1 z k) := by
  rw [accUpTo, dif_pos h]

theorem zero3 : (![0, 0, 0] : Fin 3 → Nat) = fun _ => 0 := by
  funext a; fin_cases a <;> rfl

/-- The accumulator buffer read back after the first k trips of the loop is the k-fold iterate,
    whatever the buffer held at loop entry: each trip stores, over the whole buffer, its update
    of what it loads from the whole buffer. -/
theorem loop_read (𝒱 : Variants) (c : Dev nD) (bd : Option 𝒱.V) (i : grid0.Coords)
    (arg2 : Memref sig .tc .vmem S32x16384 .f32) (harg2 : arg2.IsWhole) (arg3 : Memref sig .tc .vmem S32x16384 .f32) (harg3 : arg3.IsWhole)
    (arg4 : Memref sig .tc .vmem S32x32x32 .f32) (harg4 : arg4.IsWhole) (arg5 : Memref sig .tc .vmem S32x32x32 .f32) (harg5 : arg5.IsWhole)
    (x0 x1 : Vec F S32x16384 .f32) (G : BufTy.Contents (Elt F) arg5.view.ty) :
    ∀ k : ℕ, k ≤ k0_t1_loop.trips →
      arg5.view.read (Elt F) (arg5.view.writes (Elt F) G
        (pb_k0_t1 (F := F) 𝒱 c bd i arg2 harg2 arg3 harg3 arg4 harg4 arg5 harg5 ids (harg2.unread x0) (harg3.unread x1) G k))
      = accUpTo x0 x1 (arg5.view.read (Elt F) G) k := by
  intro k
  induction k with
  | zero => intro _; rfl
  | succ k ih =>
    intro hk
    have hlt : k < k0_t1_loop.trips := hk
    have hs := pb_k0_t1_succ (F := F) 𝒱 c bd i arg2 harg2 arg3 harg3 arg4 harg4 arg5 harg5 ids (harg2.unread x0) (harg3.unread x1) G ⟨k, hlt⟩
    simp only [] at hs
    rw [hs, View.writes_append, accUpTo_succ x0 x1 _ k hlt, ← ih (Nat.le_of_lt hlt)]
    unfold tripL_k0_t1 trip_k0_t1
    dsimp only
    unfold trip_k0_t1.sl.r trip_k0_t1.sl.r_1
    rw [View.read_writes_eq_canon, View.canon_unit_zero zero3]
    · simp only [View.readAt_eq_ld, harg2.read_unread, harg3.read_unread, View.ld_unit_zero (S := S32x32x32) zero3]
      rfl
    · intro y
      exact ⟨_, List.mem_singleton_self _, View.mem_set_unit_zero zero3 Facts₀.inb_S32x32x32_S32x32x32_0_0_0 y⟩

/-- The whole-buffer rectangle holds every index. -/
theorem cover_whole (w : S32x32x32.Idx → Elt F .f32) (y : S32x32x32.Idx) :
    ∃ p ∈ [(⟨Rect.unit (s := S32x32x32) ![0, 0, 0] S32x32x32.size Facts₀.inb_S32x32x32_S32x32x32_0_0_0, w⟩ : View.Piece (Elt F) S32x32x32 .f32)], y ∈ p.1.set :=
  ⟨_, List.mem_singleton_self _, View.mem_set_unit_zero zero3 Facts₀.inb_S32x32x32_S32x32x32_0_0_0 y⟩

/-- At the first point of a batch block the accumulator ends at the four chunks' products added
    to the zero block the body stores first. -/
theorem sout_A (c : Dev nD) (i : grid0.Coords)
    (arg2 : Memref sig .tc .vmem S32x16384 .f32) (harg2 : arg2.IsWhole) (arg3 : Memref sig .tc .vmem S32x16384 .f32) (harg3 : arg3.IsWhole)
    (arg4 : Memref sig .tc .vmem S32x32x32 .f32) (harg4 : arg4.IsWhole) (arg5 : Memref sig .tc .vmem S32x32x32 .f32) (harg5 : arg5.IsWhole) (hc0 : cond0_0 i) (hc1 : ¬cond0_1 i) (x0 x1 : Vec F S32x16384 .f32) :
    sout0_A_0 c i arg2 harg2 arg3 harg3 arg4 harg4 arg5 harg5 hc0 hc1 x0 x1 = accUpTo x0 x1 (k0_pay1 (F := F)) k0_t1_loop.trips := by
  unfold sout0_A_0
  rw [View.read_writes_eq_canon _ _ _ (scover0_A_0 c i arg2 harg2 arg3 harg3 arg4 harg4 arg5 harg5 hc0 hc1 x0 x1),
    ← View.read_writes_eq_canon arg5.view arg5.view.junk _ (scover0_A_0 c i arg2 harg2 arg3 harg3 arg4 harg4 arg5 harg5 hc0 hc1 x0 x1)]
  unfold kernelRun0_A
  dsimp only
  unfold kernelRun0_A.sl.HS0_1 kernelRun0_A.sl.v3
  rw [View.writes_append]
  refine (loop_read Variants.none c none i arg2 harg2 arg3 harg3 arg4 harg4 arg5 harg5 x0 x1 _ _ le_rfl).trans ?_
  rw [View.read_writes_eq_canon _ _ _ (cover_whole _), View.canon_unit_zero zero3]

/-- At a middle point the accumulator ends at the four chunks' products added to what the point
    before left. -/
theorem sout_B (c : Dev nD) (i : grid0.Coords)
    (arg2 : Memref sig .tc .vmem S32x16384 .f32) (harg2 : arg2.IsWhole) (arg3 : Memref sig .tc .vmem S32x16384 .f32) (harg3 : arg3.IsWhole)
    (arg4 : Memref sig .tc .vmem S32x32x32 .f32) (harg4 : arg4.IsWhole) (arg5 : Memref sig .tc .vmem S32x32x32 .f32) (harg5 : arg5.IsWhole) (hc0 : ¬cond0_0 i) (hc1 : ¬cond0_1 i) (x0 x1 : Vec F S32x16384 .f32) (xs0 : Vec F S32x32x32 .f32) :
    sout0_B_0 c i arg2 harg2 arg3 harg3 arg4 harg4 arg5 harg5 hc0 hc1 x0 x1 xs0 = accUpTo x0 x1 xs0 k0_t1_loop.trips := by
  unfold sout0_B_0
  rw [View.read_writes_eq_canon _ _ _ (scover0_B_0 c i arg2 harg2 arg3 harg3 arg4 harg4 arg5 harg5 hc0 hc1 x0 x1 xs0),
    ← View.read_writes_eq_canon arg5.view (harg5.unread xs0) _ (scover0_B_0 c i arg2 harg2 arg3 harg3 arg4 harg4 arg5 harg5 hc0 hc1 x0 x1 xs0)]
  unfold kernelRun0_B
  dsimp only
  unfold kernelRun0_B.sl.v3
  refine (loop_read Variants.none c none i arg2 harg2 arg3 harg3 arg4 harg4 arg5 harg5 x0 x1 _ _ le_rfl).trans ?_
  rw [harg5.read_unread]

/-- At the last point of a batch block the accumulator ends the same way, -/
theorem sout_C (c : Dev nD) (i : grid0.Coords)
    (arg2 : Memref sig .tc .vmem S32x16384 .f32) (harg2 : arg2.IsWhole) (arg3 : Memref sig .tc .vmem S32x16384 .f32) (harg3 : arg3.IsWhole)
    (arg4 : Memref sig .tc .vmem S32x32x32 .f32) (harg4 : arg4.IsWhole) (arg5 : Memref sig .tc .vmem S32x32x32 .f32) (harg5 : arg5.IsWhole) (hc0 : ¬cond0_0 i) (hc1 : cond0_1 i) (x0 x1 : Vec F S32x16384 .f32) (xs0 : Vec F S32x32x32 .f32) :
    sout0_C_0 c i arg2 harg2 arg3 harg3 arg4 harg4 arg5 harg5 hc0 hc1 x0 x1 xs0 = accUpTo x0 x1 xs0 k0_t1_loop.trips := by
  unfold sout0_C_0
  rw [View.read_writes_eq_canon _ _ _ (scover0_C_0 c i arg2 harg2 arg3 harg3 arg4 harg4 arg5 harg5 hc0 hc1 x0 x1 xs0),
    ← View.read_writes_eq_canon arg5.view (harg5.unread xs0) _ (scover0_C_0 c i arg2 harg2 arg3 harg3 arg4 harg4 arg5 harg5 hc0 hc1 x0 x1 xs0)]
  unfold kernelRun0_C
  dsimp only
  unfold kernelRun0_C.sl.v3
  refine (loop_read Variants.none c none i arg2 harg2 arg3 harg3 arg4 harg4 arg5 harg5 x0 x1 _ _ le_rfl).trans ?_
  rw [harg5.read_unread]

/-- and the output block receives a copy of it. -/
theorem out_C (c : Dev nD) (i : grid0.Coords)
    (arg2 : Memref sig .tc .vmem S32x16384 .f32) (harg2 : arg2.IsWhole) (arg3 : Memref sig .tc .vmem S32x16384 .f32) (harg3 : arg3.IsWhole)
    (arg4 : Memref sig .tc .vmem S32x32x32 .f32) (harg4 : arg4.IsWhole) (arg5 : Memref sig .tc .vmem S32x32x32 .f32) (harg5 : arg5.IsWhole) (hc0 : ¬cond0_0 i) (hc1 : cond0_1 i) (x0 x1 : Vec F S32x16384 .f32) (xs0 : Vec F S32x32x32 .f32) :
    out0_C_2 c i arg2 harg2 arg3 harg3 arg4 harg4 arg5 harg5 hc0 hc1 x0 x1 xs0 = accUpTo x0 x1 xs0 k0_t1_loop.trips := by
  unfold out0_C_2
  rw [View.read_writes_eq_canon _ _ _ (cover0_C_2 c i arg2 harg2 arg3 harg3 arg4 harg4 arg5 harg5 hc0 hc1 x0 x1 xs0)]
  unfold kernelRun0_C
  dsimp only
  unfold kernelRun0_C.sl.v8 kernelRun0_C.sl.v3
  rw [View.canon_unit_zero zero3, View.readAt_eq_ld, View.ld_unit_zero (S := S32x32x32) zero3]
  refine (loop_read Variants.none c none i arg2 harg2 arg3 harg3 arg4 harg4 arg5 harg5 x0 x1 _ _ le_rfl).trans ?_
  rw [harg5.read_unread]

end Cert.KernelIdeal.Acc

end
-- ==== Proof.Spec.lean ====
/-
  The joint histogram both programs compute, as one function of the two sample arrays.

  A sample pair (x, y) is counted when both coordinates lie in the unit interval; its cell is
  (bin x, bin y), where bin z is the integer part of 32·z clamped to 0 … 31. The histogram of
  batch row b at cell (i, j) is the number of positions s of that row whose pair is counted in
  cell (i, j), as an extended real: a sum of zeros and ones over the 524288 positions.
-/
import Idealize.ShloMosaic.PureOps.Ideal
import Idealize.ShloMosaic.Lib.ValueIdx

noncomputable section

open scoped BigOperators

namespace Cert.Hist

open Idealize.ShloMosaic Idealize.ShloMosaic.ValueIdx

/-- The two sample arrays' shape, and the histogram's. -/
abbrev SX : Shape := ⟨2, ![64, 524288]⟩
abbrev SJ : Shape := ⟨3, ![64, 32, 32]⟩

/-- The bin of a sample: 32·z truncated toward zero to a signed word, then clamped below by 0
    and above by 31 (the two clamps are signed maximum and minimum, in this order). -/
def bin (z : EReal) : BitVec 32 :=
  IntOp.minsi 31#32 (IntOp.maxsi 0#32 (Ideal.fptosi 32 (z * Ideal.ofBits .f32 0x42000000#32)))

/-- One bit: 0 ≤ z and z ≤ 1. -/
def inUnit (z : EReal) : BitVec 1 :=
  IntOp.andi (Ideal.cmp .oge z (Ideal.ofBits .f32 0x00000000#32)) (Ideal.cmp .ole z (Ideal.ofBits .f32 0x3F800000#32))

/-- One bit: both coordinates of the pair lie in the unit interval. -/
def valid (x y : EReal) : BitVec 1 := IntOp.andi (inUnit x) (inUnit y)

/-- What the pair (x, y) adds to cell (i, j): one if it is counted there, zero otherwise. -/
def hit (x y : EReal) (i j : Fin 32) : EReal :=
  if valid x y = 1#1 ∧ bin x = BitVec.ofNat 32 i.val ∧ bin y = BitVec.ofNat 32 j.val then 1 else 0

/-- The joint histogram: per batch row and cell, the count over the row's positions. -/
def joint (X Y : FVec Ideal SX .f32) : FVec Ideal SJ .f32 :=
  fun q => ∑ s : Fin 524288, hit (X (ix2 (q 0) s)) (Y (ix2 (q 0) s)) (q 1) (q 2)

/-- A bin is one of 0 … 31: its value read as a natural number is at most 31. -/
theorem bin_le (z : EReal) : (bin z).toNat ≤ 31 := by
  unfold bin IntOp.minsi IntOp.maxsi
  generalize Ideal.fptosi 32 (z * Ideal.ofBits .f32 0x42000000#32) = v
  simp only [BitVec.slt, BitVec.toInt_ofNat, BitVec.toInt]
  split_ifs <;> simp_all <;> omega

end Cert.Hist

end
-- ==== Proof.LibBatchedRowRowDot.lean ====
/-
  A batched contraction of rows against rows, `[B,N,K] × [B,M,K] → [B,N,M]`: one batch axis (axis 0 of both operands),
  the last axis of the left operand contracted with the last axis of the right one, so that entry `(p, q, o)` of the
  result pairs row `q` of the left operand's member `p` with row `o` of the right operand's member `p`
  (jnp's `einsum('bnd,bmd->bnm')`, the Gram matrices of a stack). At the ideal values, read at an index, it is
  the plain sum over the contracted coordinate of the products of the entries:

      result (p, q, o) = ∑ j : Fin K, lhs (p, q, j) * rhs (p, o, j)

  for the host's `dot_general` and for a `tpu.matmul` into the zero accumulator, for any extents and for operands of
  any float formats. The dimension numbers are spelt as a literal record over any well-formedness proof `w`, so the
  lemmas apply to every printed record with these dimension numbers.
-/
import Idealize.ShloMosaic.Lib.ValueIdx
import Idealize.ShloMosaic.PureOps.Ideal.Laws

noncomputable section

namespace Cert.Lib.BatchedRowRowDot

open Idealize.ShloMosaic Idealize.ShloMosaic.ValueIdx

variable {B N M K : Nat} {φ₁ φ₂ : FTy}

/-- The dimension numbers: batch axes `[0] × [0]`, free axes `[1]` and `[1]`, contracted axes `[2] × [2]`. -/
abbrev dims (w : DotDims.WF ⟨3, ![B, N, K]⟩ ⟨3, ![B, M, K]⟩ ⟨3, ![B, N, M]⟩ [2] [2] [1] [1] [0] [0]) :
    DotDims ⟨3, ![B, N, K]⟩ ⟨3, ![B, M, K]⟩ ⟨3, ![B, N, M]⟩ := ⟨[2], [2], [1], [1], [0], [0], w⟩

/-- At result index `(p, q, o)` and contracted coordinate `j` the left operand is read at `(p, q, j)`. -/
theorem lhsIdx_eq (w : DotDims.WF ⟨3, ![B, N, K]⟩ ⟨3, ![B, M, K]⟩ ⟨3, ![B, N, M]⟩ [2] [2] [1] [1] [0] [0])
    (p : Fin B) (q : Fin N) (o : Fin M) (j : Fin K) :
    (dims w).lhsIdx (ix3 p q o) ((contrEquiv1 (dims w) K rfl rfl).symm j) = ix3 p q j := by
  have c3 := contrEquiv1_symm_val (dims w) K rfl rfl j
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

/-- and the right operand at `(p, o, j)`. -/
theorem rhsIdx_eq (w : DotDims.WF ⟨3, ![B, N, K]⟩ ⟨3, ![B, M, K]⟩ ⟨3, ![B, N, M]⟩ [2] [2] [1] [1] [0] [0])
    (p : Fin B) (q : Fin N) (o : Fin M) (j : Fin K) :
    (dims w).rhsIdx (ix3 p q o) ((contrEquiv1 (dims w) K rfl rfl).symm j) = ix3 p o j := by
  have c3 := contrEquiv1_symm_val (dims w) K rfl rfl j
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The contraction's sum over its index, re-indexed by the contracted coordinate. -/
theorem sum_eq (w : DotDims.WF ⟨3, ![B, N, K]⟩ ⟨3, ![B, M, K]⟩ ⟨3, ![B, N, M]⟩ [2] [2] [1] [1] [0] [0])
    (lhs : (⟨3, ![B, N, K]⟩ : Shape).Idx → EReal) (rhs : (⟨3, ![B, M, K]⟩ : Shape).Idx → EReal)
    (p : Fin B) (q : Fin N) (o : Fin M) :
    (∑ k : (dims w).contr.Idx, lhs ((dims w).lhsIdx (ix3 p q o) k) * rhs ((dims w).rhsIdx (ix3 p q o) k))
      = ∑ j : Fin K, lhs (ix3 p q j) * rhs (ix3 p o j) := by
  rw [← Equiv.sum_comp (contrEquiv1 (dims w) K rfl rfl).symm]
  refine Finset.sum_congr rfl fun j _ => ?_
  rw [lhsIdx_eq, rhsIdx_eq]

/-- The host's `dot_general` with these dimension numbers, read at an index, at the ideal values. -/
theorem dotGeneral_apply (w : DotDims.WF ⟨3, ![B, N, K]⟩ ⟨3, ![B, M, K]⟩ ⟨3, ![B, N, M]⟩ [2] [2] [1] [1] [0] [0])
    (prec : Option ContractPrecision) (lhs : FVec Ideal ⟨3, ![B, N, K]⟩ φ₁) (rhs : FVec Ideal ⟨3, ![B, M, K]⟩ φ₂)
    (p : Fin B) (q : Fin N) (o : Fin M) :
    Host.dotGeneral (dims w) prec lhs rhs (ix3 p q o) = ∑ j : Fin K, lhs (ix3 p q j) * rhs (ix3 p o j) := by
  show FloatOps.dotGeneral _ prec _ lhs rhs (ix3 p q o) = _
  rw [Ideal.dotGeneral_apply]
  exact sum_eq w lhs rhs p q o

/-- A `tpu.matmul` with these dimension numbers into the zero accumulator, read at an index, at the ideal values. -/
theorem matmul_zero_apply (w : DotDims.WF ⟨3, ![B, N, K]⟩ ⟨3, ![B, M, K]⟩ ⟨3, ![B, N, M]⟩ [2] [2] [1] [1] [0] [0])
    (prec : Option ContractPrecision) (lhs : FVec Ideal ⟨3, ![B, N, K]⟩ φ₁) (rhs : FVec Ideal ⟨3, ![B, M, K]⟩ φ₂)
    (p : Fin B) (q : Fin N) (o : Fin M) :
    matmul (dims w) prec lhs rhs (constant (F := Ideal) ⟨3, ![B, N, M]⟩ .f32 0x00000000#32) (ix3 p q o)
      = ∑ j : Fin K, lhs (ix3 p q j) * rhs (ix3 p o j) := by
  show FloatOps.matmul _ prec lhs rhs _ (ix3 p q o) = _
  rw [Ideal.matmul_constant_zero_apply]
  exact sum_eq w lhs rhs p q o

end Cert.Lib.BatchedRowRowDot

end
-- ==== Proof.LibRank3Keepdims.lean ====
/-
  Rank-2 arrays placed in a rank-3 box along a new unit axis, read at an index written by coordinates.

  A matrix `w : [a, c]` becomes a column stack `[a, c, 1]` or a row stack `[a, 1, c]` by a shape cast, and either is then
  broadcast along its unit axis. Read at `(i, j, l)` the first is `w (i, j)` and the second `w (i, l)`: the pair whose
  difference is the table of all pairwise differences `w (i, j) - w (i, l)` of each row `i`. With them: the row
  `[a, 1, c]` cut out of a rank-3 array along its middle axis and cast back to a matrix `[a, c]`.
  (The library's Lib/ValueLayout.lean has the leading-unit-axis casts and the rank-2 row broadcast; these are the
  trailing- and middle-unit-axis forms at rank 3, in its style.)
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    obtain rfl : u = 0 := Subsingleton.elim _ _
    show i.val * b + j.val = (i.val * b + j.val) * 1 + 0
    rw [Nat.mul_one, Nat.add_zero])

/-- An `[a, c]` array cast to `[a, 1, c]` reads, at `(i, u, l)`, the operand at `(i, l)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (l : Fin c) :
    shapeCast ⟨3, ![a, 1, c]⟩ x h (ix3 i u l) = x (ix2 i l) :=
  shapeCast_apply x h _ _ (by
    rw [Shape.rowMajor_val_two, Shape.rowMajor_val_three]
    obtain rfl : u = 0 := Subsingleton.elim _ _
    show i.val * c + l.val = (i.val * 1 + 0) * c + l.val
    rw [Nat.mul_one, Nat.add_zero])

/-- An `[a, 1, c]` array cast to `[a, c]` reads, at `(i, l)`, the operand at `(i, 0, l)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (l : Fin c) :
    shapeCast ⟨2, ![a, c]⟩ x h (ix2 i l) = x (ix3 i (0 : Fin 1) l) :=
  shapeCast_apply x h _ _ (by
    rw [Shape.rowMajor_val_three, Shape.rowMajor_val_two]
    show (i.val * 1 + 0) * c + l.val = i.val * c + l.val
    rw [Nat.mul_one, Nat.add_zero])

/-- An `[a, b, 1]` array broadcast to `[a, b, c]` reads, at `(i, j, l)`, the operand's one entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand's one row entry `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- A matrix `w : [a, b]` stood up as columns `[a, b, 1]` and broadcast to `[a, b, c]` reads `w (i, j)` at `(i, j, l)`. -/
theorem broadcastTo_cols_apply {a b c : ℕ} (w : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (l : Fin c) :
    broadcastTo ⟨3, ![a, b, c]⟩ (shapeCast ⟨3, ![a, b, 1]⟩ w h) h' (ix3 i j l) = w (ix2 i j) :=
  (broadcastTo_ab1_abc_apply _ h' i j l).trans (shapeCast_ab_ab1_apply w h i j 0)

/-- A matrix `w : [a, c]` laid down as rows `[a, 1, c]` and broadcast to `[a, b, c]` reads `w (i, l)` at `(i, j, l)`. -/
theorem broadcastTo_rows_apply {a b c : ℕ} (w : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (l : Fin c) :
    broadcastTo ⟨3, ![a, b, c]⟩ (shapeCast ⟨3, ![a, 1, c]⟩ w h) h' (ix3 i j l) = w (ix2 i l) :=
  (broadcastTo_a1c_abc_apply _ h' i j l).trans (shapeCast_ac_a1c_apply w h i 0 l)

/-- The matrix at middle coordinate `o` of a rank-3 array — the slice `[a, 1, c]` from `o` along axis 1, cast to
    `[a, c]` — reads, at `(i, l)`, the array at `(i, o, l)`. -/
theorem sliceRow_apply {a n c : ℕ} (o : ℕ) (X : (⟨3, ![a, n, c]⟩ : Shape).Idx → α)
    (h : (⟨3, ![a, n, c]⟩ : Shape).Slices ![0, o, 0] ⟨3, ![a, 1, c]⟩)
    (h' : (⟨3, ![a, 1, c]⟩ : Shape).ShapeCasts ⟨2, ![a, c]⟩) (i : Fin a) (l : Fin c) :
    shapeCast ⟨2, ![a, c]⟩ (extractStridedSlice ⟨3, ![a, 1, c]⟩ ![0, o, 0] X h) h' (ix2 i l)
      = X (ix3 i ⟨o, Nat.lt_of_lt_of_le (Nat.lt_succ_self o) (h.2 1)⟩ l) :=
  (shapeCast_a1c_ac_apply _ h' i l).trans (slice3_axis1_apply o X h i (0 : Fin 1) l _ rfl)

end Idealize.ShloMosaic.ValueIdx
-- ==== Proof.StepIdeal.lean ====
/-
  One chunk's update of the accumulator, read at a cell, over the extended reals.

  The left one-hot encoding of a chunk is 1 at (row p, bin i, column l) when the pair at (p, l)
  is valid and its first coordinate's bin is i (an invalid pair carries the bin −1, which is no
  bin); the right one is 1 at (p, j, l) when the second coordinate's bin is j. Their product
  summed over the chunk's 4096 columns counts the chunk's pairs in cell (i, j); the update adds
  this count to the accumulator's cell.
-/
import proofs.«166714_j69106023792751_2_alg».proof.Proof.Pieces
import proofs.«166714_j69106023792751_2_alg».proof.Proof.Spec
import proofs.«166714_j69106023792751_2_alg».proof.Proof.LibBatchedRowRowDot
import proofs.«166714_j69106023792751_2_alg».proof.Proof.LibRank3Keepdims
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Acc

open Cert.KernelIdeal Cert.KernelIdeal.Gen Cert.Hist
open Idealize.ShloMosaic Idealize.ShloMosaic.ValueIdx

/-- A one-bit equality test widened to a word and read as a number is 1 or 0. -/
theorem onehot (a b : BitVec 32) :
    (((BitVec.setWidth 32 (IntOp.cmpi .eq a b)).toInt : ℝ) : EReal) = if a = b then 1 else 0 := by
  unfold IntOp.cmpi
  by_cases h : a = b
  · subst h; simp
  · have hb : (a == b) = false := beq_false_of_ne h
    simp [h, hb]

/-- The bin-id template spread over a chunk reads, at (p, i, l), the word i. -/
theorem ids_bcast (p : Fin 32) (i : Fin 32) (l : Fin 4096) :
    broadcastTo S32x32x4096 ids Facts₀.broadcasts_S1x32x1_S32x32x4096 (ix3 p i l) = BitVec.ofNat 32 i.val := by
  refine (broadcastTo_apply ids Facts₀.broadcasts_S1x32x1_S32x32x4096 (ix3 p i l) (ix3 (0 : Fin 1) i (0 : Fin 1)) fun ax => ?_).trans ?_
  · match ax with
    | ⟨0, _⟩ => rfl
    | ⟨1, _⟩ => rfl
    | ⟨2, _⟩ => rfl
  · show BitVec.ofNat 32 (0 * 32 + i.val) = _
    rw [Nat.zero_mul, Nat.zero_add]

/-- The word −1 is no bin id. -/
theorem neg_one_ne (i : Fin 32) : (4294967295#32 : BitVec 32) ≠ BitVec.ofNat 32 i.val := by
  intro h
  have := congrArg BitVec.toNat h
  simp at this
  omega

/-- The product of the two one-hot entries of a pair is what the pair adds to the cell. -/
theorem hit_mul (x y : EReal) (i j : Fin 32) :
    (if Scalar.select (valid x y) (bin x) 4294967295#32 = BitVec.ofNat 32 i.val then (1 : EReal) else 0)
      * (if bin y = BitVec.ofNat 32 j.val then 1 else 0) = hit x y i j := by
  unfold hit
  by_cases hv : valid x y = 1#1
  · rw [hv, select_one]
    by_cases h1 : bin x = BitVec.ofNat 32 i.val <;> by_cases h2 : bin y = BitVec.ofNat 32 j.val <;> simp [h1, h2]
  · rw [eq_zero_of_ne_one hv, select_zero, if_neg (neg_one_ne i), zero_mul, if_neg]
    rintro ⟨h, -⟩
    exact absurd h (by decide)

/-- The right one-hot encoding of a column of bins, as the update spells it. -/
def rhsHot {F : FTy → Type} [FloatOps F] (v50 : IVec S32x1x4096 32) : FVec F S32x32x4096 .bf16 :=
  truncf .bf16 (sitofp .f32 (extui 32 (cmpi .eq (broadcastTo S32x32x4096 v50 Facts₀.broadcasts_S32x1x4096_S32x32x4096)
    (broadcastTo S32x32x4096 ids Facts₀.broadcasts_S1x32x1_S32x32x4096)) Facts₀.natLt_1_32)) Facts₀.bitsLt_bf16_f32

/-- The update is the accumulator plus the product of the two encodings. -/
theorem pay2_eq {F : FTy → Type} [FloatOps F] (v49 : FVec F S32x32x4096 .bf16) (v50 : IVec S32x1x4096 32) (v58 : Vec F S32x32x32 .f32) :
    k0_pay2 (F := F) v49 v50 v58 = shapeCast S32x32x32
      (addf v58 (matmul dot_S32x32x4096_S32x32x4096_S32x32x32_2_2_1_1_0_0 none v49 (rhsHot v50) (constant S32x32x32 .f32 0x00000000#32)))
      Facts₀.shapeCasts_S32x32x32_S32x32x32 := rfl

/-- The left encoding at (p, i, l): 1 when the pair at (p, l) is valid with first bin i. -/
theorem lhs_apply (c0 c1 : Vec Ideal S32x4096 .f32) (p i : Fin 32) (l : Fin 4096) :
    k0_pay3 (F := Ideal) ids c0 c1 (ix3 p i l)
      = if Scalar.select (valid (c0 (ix2 p l)) (c1 (ix2 p l))) (bin (c0 (ix2 p l))) 4294967295#32 = BitVec.ofNat 32 i.val then 1 else 0 := by
  refine Eq.trans (congrArg₂ (fun a b : BitVec 32 => (((BitVec.setWidth 32 (IntOp.cmpi .eq a b)).toInt : ℝ) : EReal))
    (broadcastTo_rows_apply _ Facts₀.shapeCasts_S32x4096_S32x1x4096 Facts₀.broadcasts_S32x1x4096_S32x32x4096 p i l) (ids_bcast p i l)) ?_
  exact onehot _ _

/-- The right encoding at (p, j, l): 1 when the second bin of the pair at (p, l) is j. -/
theorem rhs_apply (c1 : Vec Ideal S32x4096 .f32) (p j : Fin 32) (l : Fin 4096) :
    rhsHot (F := Ideal) (k0_pay4 c1) (ix3 p j l) = if bin (c1 (ix2 p l)) = BitVec.ofNat 32 j.val then 1 else 0 := by
  unfold k0_pay4
  refine Eq.trans (congrArg₂ (fun a b : BitVec 32 => (((BitVec.setWidth 32 (IntOp.cmpi .eq a b)).toInt : ℝ) : EReal))
    (broadcastTo_rows_apply _ Facts₀.shapeCasts_S32x4096_S32x1x4096 Facts₀.broadcasts_S32x1x4096_S32x32x4096 p j l) (ids_bcast p j l)) ?_
  exact onehot _ _

/-- One chunk's update at a cell: the cell plus the count of the chunk's pairs in it. -/
theorem step_apply (x0 x1 : Vec Ideal S32x16384 .f32) (k : Fin k0_t1_loop.trips) (z : Vec Ideal S32x32x32 .f32) (p i j : Fin 32) :
    step x0 x1 k z (ix3 p i j)
      = z (ix3 p i j) + ∑ l : Fin 4096, hit (chunk k x0 (ix2 p l)) (chunk k x1 (ix2 p l)) i j := by
  unfold step
  rw [pay2_eq, shapeCast_self]
  show z (ix3 p i j) + matmul (Cert.Lib.BatchedRowRowDot.dims Facts₀.dot_S32x32x4096_S32x32x4096_S32x32x32_2_2_1_1_0_0_wf) none
    (k0_pay3 (F := Ideal) ids (chunk k x0) (chunk k x1)) (rhsHot (k0_pay4 (chunk k x1)))
    (constant (F := Ideal) ⟨3, ![32, 32, 32]⟩ .f32 0x00000000#32) (ix3 p i j) = _
  rw [Cert.Lib.BatchedRowRowDot.matmul_zero_apply]
  refine congrArg (fun s => z (ix3 p i j) + s) (Finset.sum_congr rfl fun l _ => ?_)
  rw [lhs_apply, rhs_apply, hit_mul]

end Cert.KernelIdeal.Acc

end
-- ==== Proof.LibNatRead.lean ====
/-
  A matrix read at a pair of natural numbers.

  When a large matrix is cut into blocks, the row and column of an entry of a block are sums "block offset + position
  inside the block".  Reading the matrix at natural numbers, each reduced modulo its extent, makes such a reading a
  total function of the two numbers: positions can then be compared by arithmetic alone, with no bound carried inside
  the term.  At numbers below the extents the reading is the matrix entry itself.
-/
import Idealize.ShloMosaic.Lib.ValueIdx

noncomputable section

namespace Cert.LibNatRead

open Idealize.ShloMosaic Idealize.ShloMosaic.ValueIdx

variable {α : Type}

/-- The entry of an [a, b] matrix at row r mod a and column l mod b. -/
def rd2 {a b : ℕ} (ha : 0 < a) (hb : 0 < b) (X : (⟨2, ![a, b]⟩ : Shape).Idx → α) (r l : ℕ) : α :=
  X (ix2 (⟨r % a, Nat.mod_lt _ ha⟩ : Fin a) (⟨l % b, Nat.mod_lt _ hb⟩ : Fin b))

/-- The entry at an index is the reading at the index's two coordinates. -/
theorem rd2_eq {a b : ℕ} (ha : 0 < a) (hb : 0 < b) (X : (⟨2, ![a, b]⟩ : Shape).Idx → α) (i : (⟨2, ![a, b]⟩ : Shape).Idx)
    (r l : ℕ) (h0 : (i 0).val = r) (h1 : (i 1).val = l) : X i = rd2 ha hb X r l := by
  unfold rd2
  refine congrArg X (funext fun ax => Fin.ext ?_)
  match ax with
  | ⟨0, _⟩ =>
    show (i 0).val = r % a
    rw [← h0]; exact (Nat.mod_eq_of_lt (idx2_lt0 i)).symm
  | ⟨1, _⟩ =>
    show (i 1).val = l % b
    rw [← h1]; exact (Nat.mod_eq_of_lt (idx2_lt1 i)).symm

/-- At a row and a column below the extents the reading is the entry. -/
theorem rd2_ix2 {a b : ℕ} (ha : 0 < a) (hb : 0 < b) (X : (⟨2, ![a, b]⟩ : Shape).Idx → α) (r : Fin a) (l : Fin b) :
    rd2 ha hb X r.val l.val = X (ix2 r l) :=
  (rd2_eq ha hb X (ix2 r l) r.val l.val rfl rfl).symm

end Cert.LibNatRead

end
-- ==== Proof.PointSum.lean ====
/-
  One grid point's contribution to the accumulator, read at a cell.

  The four chunks of a point's two staged blocks are their columns 0 … 16383 in order, so the
  four updates together add the count of the point's 16384 column pairs of each row in each cell.
  Blocks are read at natural numbers (row, column) so that the column of a chunk's entry is the
  plain sum 4096·k + l.
-/
import proofs.«166714_j69106023792751_2_alg».proof.Proof.StepIdeal
import proofs.«166714_j69106023792751_2_alg».proof.Proof.LibNatRead

set_option maxRecDepth 16384

noncomputable section

open scoped BigOperators

namespace Cert.KernelIdeal.Acc

open Cert.KernelIdeal Cert.KernelIdeal.Gen Cert.Hist Cert.LibNatRead
open Idealize.ShloMosaic Idealize.ShloMosaic.ValueIdx

/-- The loop makes four trips. -/
theorem trips_eq : k0_t1_loop.trips = 4 := by decide

/-- A staged [32, 16384] block read at a row and a column given as natural numbers. -/
abbrev rdB (x : Vec Ideal S32x16384 .f32) (r l : ℕ) : EReal :=
  rd2 (a := 32) (b := 16384) (by decide) (by decide) x r l

/-- Entry (p, l) of chunk k is the block's entry at row p, column 4096·k + l. -/
theorem chunk_apply (k : Fin k0_t1_loop.trips) (x : Vec Ideal S32x16384 .f32) (p : Fin 32) (l : Fin 4096) :
    chunk k x (ix2 p l) = rdB x p.val (4096 * k.val + l.val) := by
  unfold chunk
  refine rd2_eq _ _ x _ _ _ ?_ ?_
  · show k0_off1 k 0 + 1 * p.val = p.val
    rw [k0_off1_eq k]
    show 0 + 1 * p.val = p.val
    omega
  · show k0_off1 k 1 + 1 * l.val = 4096 * k.val + l.val
    rw [k0_off1_eq k]
    show 4096 * k.val + 1 * l.val = 4096 * k.val + l.val
    omega

/-- One chunk's update at a cell, the chunk's columns as a range of natural numbers. -/
theorem step_range (x0 x1 : Vec Ideal S32x16384 .f32) (k : Fin k0_t1_loop.trips) (z : Vec Ideal S32x32x32 .f32) (p i j : Fin 32) :
    step x0 x1 k z (ix3 p i j)
      = z (ix3 p i j) + ∑ l ∈ Finset.range 4096, hit (rdB x0 p.val (4096 * k.val + l)) (rdB x1 p.val (4096 * k.val + l)) i j := by
  rw [step_apply, ← Fin.sum_univ_eq_sum_range (fun l => hit (rdB x0 p.val (4096 * k.val + l)) (rdB x1 p.val (4096 * k.val + l)) i j) 4096]
  refine congrArg (fun s => z (ix3 p i j) + s) (Finset.sum_congr rfl fun l _ => ?_)
  rw [chunk_apply, chunk_apply]

/-- After the first n chunks the cell holds what it held plus the count over columns 0 … 4096·n − 1. -/
theorem acc_apply (x0 x1 : Vec Ideal S32x16384 .f32) (z : Vec Ideal S32x32x32 .f32) (p i j : Fin 32) :
    ∀ n : ℕ, n ≤ k0_t1_loop.trips →
      accUpTo x0 x1 z n (ix3 p i j)
        = z (ix3 p i j) + ∑ q ∈ Finset.range (4096 * n), hit (rdB x0 p.val q) (rdB x1 p.val q) i j
  | 0, _ => by
    show z (ix3 p i j) = _
    rw [Nat.mul_zero, Finset.sum_range_zero, add_zero]
  | n + 1, h => by
    have hlt : n < k0_t1_loop.trips := h
    rw [accUpTo_succ x0 x1 z n hlt, step_range, acc_apply x0 x1 z p i j n (Nat.le_of_lt hlt), add_assoc,
      show 4096 * (n + 1) = 4096 * n + 4096 from by ring, Finset.sum_range_add]

/-- After the whole body: plus the count over the point's 16384 columns. -/
theorem point_apply (x0 x1 : Vec Ideal S32x16384 .f32) (z : Vec Ideal S32x32x32 .f32) (p i j : Fin 32) :
    accUpTo x0 x1 z k0_t1_loop.trips (ix3 p i j)
      = z (ix3 p i j) + ∑ q ∈ Finset.range 16384, hit (rdB x0 p.val q) (rdB x1 p.val q) i j := by
  rw [acc_apply x0 x1 z p i j k0_t1_loop.trips le_rfl, trips_eq]

end Cert.KernelIdeal.Acc

end
-- ==== Proof.Invariant.lean ====
/-
  The accumulator after each grid point, and the array of counts the region leaves.

  Grid point n works on batch block n / 32 (32 rows) and on columns 16384·(n % 32) … of the two
  sample arrays. By induction on the point: after point n the accumulator's cell (p, i, j) holds
  the count, in cell (i, j), of the pairs of row 32·(n / 32) + p over the columns below
  16384·(n % 32 + 1) — the first point of a batch block starts from zeros, every other point adds
  to what the point before left. The last point of a batch block (n % 32 = 31) has counted the
  whole row and copies the accumulator to the output block, which is batch block n / 32 of the
  array of counts; the two written blocks tile that array.
-/
import proofs.«166714_j69106023792751_2_alg».proof.Proof.PointSum
import Idealize.ShloMosaic.Lib.Pipeline.Value

set_option maxRecDepth 16384

noncomputable section

open scoped BigOperators

namespace Cert.KernelIdeal.Acc

open Cert.KernelIdeal Cert.KernelIdeal.Gen Cert.Hist Cert.LibNatRead
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The two sample arrays as the region finds them. -/
abbrev XA (c : Dev nD) : FVec Ideal SX .f32 := m ((c : Thread nD τ).loc main_arg0)
abbrev YA (c : Dev nD) : FVec Ideal SX .f32 := m ((c : Thread nD τ).loc main_arg1)

/-- A sample array read at a row and a column given as natural numbers. -/
abbrev rdA (X : FVec Ideal SX .f32) (r l : ℕ) : EReal :=
  rd2 (a := 64) (b := 524288) (by decide) (by decide) X r l

/-- The count, in cell (i, j), of the pairs of row r over the columns below n. -/
def cnt (X Y : FVec Ideal SX .f32) (r n : ℕ) (i j : Fin 32) : EReal :=
  ∑ s ∈ Finset.range n, hit (rdA X r s) (rdA Y r s) i j

/-- Where the windows' blocks sit: point t reads batch block t / 32 and column block t % 32 of
    both sample arrays, and writes batch block t / 32 of the counts. -/
theorem idx_facts0 : ∀ t : Fin cfg0.N, win0_0.index t (0 : Fin 2) = t.val / 32 ∧ win0_0.index t (1 : Fin 2) = t.val % 32 :=
  (by decide +kernel : ∀ t : Fin grid0.N, win0_0.index t (0 : Fin 2) = t.val / 32 ∧ win0_0.index t (1 : Fin 2) = t.val % 32)
theorem idx_facts1 : ∀ t : Fin cfg0.N, win0_1.index t (0 : Fin 2) = t.val / 32 ∧ win0_1.index t (1 : Fin 2) = t.val % 32 :=
  (by decide +kernel : ∀ t : Fin grid0.N, win0_1.index t (0 : Fin 2) = t.val / 32 ∧ win0_1.index t (1 : Fin 2) = t.val % 32)
theorem idx_facts2 : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)

/-- Entry (p, q) of the first array's block at point t. -/
theorem iblk0_apply (c : Dev nD) (t : Fin cfg0.N) (p : Fin 32) (q : Fin 16384) :
    (iblk m c 0 t : Vec Ideal S32x16384 .f32) (ix2 p q)
      = rdA (XA m c) (32 * (t.val / 32) + p.val) (16384 * (t.val % 32) + q.val) := by
  unfold iblk
  rw [View.read_apply]
  show V m c main_arg0 _ = _
  refine rd2_eq _ _ _ _ _ _ ?_ ?_
  · show win0_0.index t 0 * 32 + 1 * p.val = _
    rw [(idx_facts0 t).1]; omega
  · show win0_0.index t 1 * 16384 + 1 * q.val = _
    rw [(idx_facts0 t).2]; omega

/-- Entry (p, q) of the second array's block at point t. -/
theorem iblk1_apply (c : Dev nD) (t : Fin cfg0.N) (p : Fin 32) (q : Fin 16384) :
    (iblk m c 1 t : Vec Ideal S32x16384 .f32) (ix2 p q)
      = rdA (YA m c) (32 * (t.val / 32) + p.val) (16384 * (t.val % 32) + q.val) := by
  unfold iblk
  rw [View.read_apply]
  show V m c main_arg1 _ = _
  refine rd2_eq _ _ _ _ _ _ ?_ ?_
  · show win0_1.index t 0 * 32 + 1 * p.val = _
    rw [(idx_facts1 t).1]; omega
  · show win0_1.index t 1 * 16384 + 1 * q.val = _
    rw [(idx_facts1 t).2]; omega

/-- One point's body at a cell, in the sample arrays' own rows and columns. -/
theorem point_cnt (c : Dev nD) (t : Fin cfg0.N) (z : Vec Ideal S32x32x32 .f32) (p i j : Fin 32) :
    accUpTo (iblk m c 0 t : Vec Ideal S32x16384 .f32) (iblk m c 1 t : Vec Ideal S32x16384 .f32) z k0_t1_loop.trips (ix3 p i j)
      = z (ix3 p i j) + ∑ q ∈ Finset.range 16384,
          hit (rdA (XA m c) (32 * (t.val / 32) + p.val) (16384 * (t.val % 32) + q))
            (rdA (YA m c) (32 * (t.val / 32) + p.val) (16384 * (t.val % 32) + q)) i j := by
  rw [point_apply]
  refine congrArg (fun s => z (ix3 p i j) + s) (Finset.sum_congr rfl fun q hq => ?_)
  have hq' : q < 16384 := Finset.mem_range.mp hq
  rw [show rdB (iblk m c 0 t : Vec Ideal S32x16384 .f32) p.val q = _ from
        (rd2_ix2 _ _ _ p ⟨q, hq'⟩).trans (iblk0_apply m c t p ⟨q, hq'⟩),
      show rdB (iblk m c 1 t : Vec Ideal S32x16384 .f32) p.val q = _ from
        (rd2_ix2 _ _ _ p ⟨q, hq'⟩).trans (iblk1_apply m c t p ⟨q, hq'⟩)]

/-- The zero block at a cell. -/
theorem pay1_apply (y : S32x32x32.Idx) : k0_pay1 (F := Ideal) y = 0 := by
  unfold k0_pay1
  rw [shapeCast_self]
  exact Ideal.ofBits_zero_f32

/-- At the first point of a batch block the accumulator's cell holds that point's count. -/
theorem acc_first (c : Dev nD) (n : ℕ) (hn : n < cfg0.N) (h0 : n % 32 = 0) (p i j : Fin 32) :
    (outsAt0 m c n hn).2 (ix3 p i j)
      = ∑ q ∈ Finset.range 16384,
          hit (rdA (XA m c) (32 * (n / 32) + p.val) (16384 * (n % 32) + q))
            (rdA (YA m c) (32 * (n / 32) + p.val) (16384 * (n % 32) + q)) i j := by
  have h1 : ¬(⟨n, hn⟩ : Fin cfg0.N).val % 32 = 31 := by dsimp only; omega
  rw [outsAt0_A m c ⟨n, hn⟩ h0 h1]
  dsimp only
  rw [sout_A, point_cnt, pay1_apply, zero_add]

/-- At every other point it holds what the point before left plus that point's count. -/
theorem acc_next (c : Dev nD) (n : ℕ) (hn : n < cfg0.N) (h0 : ¬n % 32 = 0) (p i j : Fin 32) :
    (outsAt0 m c n hn).2 (ix3 p i j)
      = (outsAt0 m c (n - 1) (Nat.lt_of_le_of_lt (Nat.sub_le _ _) hn)).2 (ix3 p i j)
        + ∑ q ∈ Finset.range 16384,
          hit (rdA (XA m c) (32 * (n / 32) + p.val) (16384 * (n % 32) + q))
            (rdA (YA m c) (32 * (n / 32) + p.val) (16384 * (n % 32) + q)) i j := by
  by_cases h1 : n % 32 = 31
  · rw [outsAt0_C m c ⟨n, hn⟩ h0 h1]
    dsimp only
    rw [sout_C, point_cnt]
  · rw [outsAt0_B m c ⟨n, hn⟩ h0 h1]
    dsimp only
    rw [sout_B, point_cnt]

/-- THE INVARIANT: after point n the accumulator's cell (p, i, j) is the count of row
    32·(n / 32) + p over the columns below 16384·(n % 32 + 1). -/
theorem acc_inv (c : Dev nD) : ∀ (n : ℕ) (hn : n < cfg0.N) (p i j : Fin 32),
    (outsAt0 m c n hn).2 (ix3 p i j)
      = cnt (XA m c) (YA m c) (32 * (n / 32) + p.val) (16384 * (n % 32 + 1)) i j := by
  intro n
  induction n with
  | zero =>
    intro hn p i j
    rw [acc_first m c 0 hn rfl p i j]
    unfold cnt
    simp only [Nat.zero_mod, Nat.mul_zero, Nat.zero_add, Nat.mul_one]
  | succ n ih =>
    intro hn p i j
    by_cases h0 : (n + 1) % 32 = 0
    · rw [acc_first m c (n + 1) hn h0 p i j]
      unfold cnt
      rw [h0]
      simp only [Nat.mul_zero, Nat.zero_add, Nat.mul_one]
    · rw [acc_next m c (n + 1) hn h0 p i j]
      show (outsAt0 m c n (Nat.lt_of_succ_lt hn)).2 (ix3 p i j) + _ = _
      rw [ih (Nat.lt_of_succ_lt hn) p i j]
      have hd : (n + 1) / 32 = n / 32 := by omega
      have hm : (n + 1) % 32 = n % 32 + 1 := by omega
      rw [hd, hm]
      unfold cnt
      rw [show 16384 * (n % 32 + 1 + 1) = 16384 * (n % 32 + 1) + 16384 from by ring, Finset.sum_range_add]

/-- At the last point of a batch block the output block is a copy of the accumulator. -/
theorem out_eq_acc (c : Dev nD) (n : ℕ) (hn : n < cfg0.N) (h1 : n % 32 = 31) :
    (outsAt0 m c n hn).1 = (outsAt0 m c n hn).2 := by
  have h0 : ¬(⟨n, hn⟩ : Fin cfg0.N).val % 32 = 0 := by dsimp only; omega
  rw [outsAt0_C m c ⟨n, hn⟩ h0 h1]
  dsimp only
  rw [out_C, sout_C]

/-- The joint histogram at a cell is the count of the whole row. -/
theorem joint_eq_cnt (X Y : FVec Ideal SX .f32) (b : Fin 64) (i j : Fin 32) :
    joint X Y (ix3 b i j) = cnt X Y b.val 524288 i j := by
  unfold cnt
  rw [← Fin.sum_univ_eq_sum_range (fun s => hit (rdA X b.val s) (rdA Y b.val s) i j) 524288]
  refine Finset.sum_congr rfl fun s _ => ?_
  show hit (X (ix2 b s)) (Y (ix2 b s)) i j = hit (rdA X b.val s.val) (rdA Y b.val s.val) i j
  rw [show rdA X b.val s.val = X (ix2 b s) from rd2_ix2 _ _ X b s,
    show rdA Y b.val s.val = Y (ix2 b s) from rd2_ix2 _ _ Y b s]

/-- The invariant and the joint histogram at an index that is not split into coordinates. -/
theorem acc_inv' (c : Dev nD) (n : ℕ) (hn : n < cfg0.N) (y : S32x32x32.Idx) :
    (outsAt0 m c n hn).2 y
      = cnt (XA m c) (YA m c) (32 * (n / 32) + (y 0).val) (16384 * (n % 32 + 1)) (y 1) (y 2) := by
  exact (congrArg (outsAt0 m c n hn).2 (eq_ix3 y)).trans (acc_inv m c n hn (y 0) (y 1) (y 2))

theorem joint_eq_cnt' (X Y : FVec Ideal SX .f32) (k : SJ.Idx) :
    joint X Y k = cnt X Y (k 0).val 524288 (k 1) (k 2) := by
  exact (congrArg (joint X Y) (eq_ix3 k)).trans (joint_eq_cnt X Y (k 0) (k 1) (k 2))

set_option maxRecDepth 100000 in
/-- What the last point of a batch block writes back is that batch block of the joint histogram. -/
theorem flushed_eq (c : Dev nD) (t : Fin cfg0.N) (hf : (cfg0.win 2).flush t = true) :
    (dats m 0 c).flushed 2 t = ((cfg0.win 2).blk t).view.read (Elt Ideal) (joint (XA m c) (YA m c)) := by
  have h31 : t.val % 32 = 31 := (flush0_2 t).mp hf
  show (cfg0.win 2).cut (grid0.coords t) ((dats m 0 c).after 2 t) = _
  rw [after0_2, out_eq_acc m c t.val t.isLt h31]
  funext y
  rw [View.read_apply]
  refine (acc_inv' m c t.val t.isLt ((cfg0.win 2).xinj (grid0.coords t) y)).trans ?_
  have e0 : (((cfg0.win 2).blk t).view.emb y 0).val = 32 * (t.val / 32) + (y 0).val := by
    show win0_2.index t 0 * 32 + 1 * (y 0).val = _
    rw [(idx_facts2 t).1]; omega
  have e1 : ((cfg0.win 2).blk t).view.emb y 1 = (cfg0.win 2).xinj (grid0.coords t) y 1 := Fin.ext (by
    show win0_2.index t 1 * 32 + 1 * (y 1).val = (y 1).val
    rw [(idx_facts2 t).2.1]; omega)
  have e2 : ((cfg0.win 2).blk t).view.emb y 2 = (cfg0.win 2).xinj (grid0.coords t) y 2 := Fin.ext (by
    show win0_2.index t 2 * 32 + 1 * (y 2).val = (y 2).val
    rw [(idx_facts2 t).2.2]; omega)
  rw [h31, joint_eq_cnt', e0, e1, e2]
  exact (cast_eq _ _).symm

/-- Every cell of the array of counts lies in the block some batch block's last point writes. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 64 := N_0
  have hi0 : (i 0).val < 64 := (i 0).isLt
  have hi1 : (i 1).val < 32 := (i 1).isLt
  have hi2 : (i 2).val < 32 := (i 2).isLt
  have ht : 32 * ((i 0).val / 32) + 31 < cfg0.N := by omega
  refine ⟨⟨32 * ((i 0).val / 32) + 31, ht⟩, (flush0_2 _).mpr (by show (32 * ((i 0).val / 32) + 31) % 32 = 31; omega), ?_⟩
  show i ∈ ((View.whole main_v0).slice (win0_2.rect ⟨32 * ((i 0).val / 32) + 31, ht⟩)).set
  rw [View.set_slice_whole, Rect.mem_set_unit]
  obtain ⟨e0, e1, e2⟩ := idx_facts2 ⟨32 * ((i 0).val / 32) + 31, ht⟩
  have e0' : win0_2.index ⟨32 * ((i 0).val / 32) + 31, ht⟩ (0 : Fin 3) = (32 * ((i 0).val / 32) + 31) / 32 := e0
  intro a
  match a with
  | ⟨0, _⟩ =>
    show win0_2.index ⟨32 * ((i 0).val / 32) + 31, ht⟩ (0 : Fin 3) * 32 ≤ (i 0).val
      ∧ (i 0).val < win0_2.index ⟨32 * ((i 0).val / 32) + 31, ht⟩ (0 : Fin 3) * 32 + 32
    rw [e0']; omega
  | ⟨1, _⟩ =>
    show win0_2.index ⟨32 * ((i 0).val / 32) + 31, ht⟩ (1 : Fin 3) * 32 ≤ (i 1).val
      ∧ (i 1).val < win0_2.index ⟨32 * ((i 0).val / 32) + 31, ht⟩ (1 : Fin 3) * 32 + 32
    rw [e1]; omega
  | ⟨2, _⟩ =>
    show win0_2.index ⟨32 * ((i 0).val / 32) + 31, ht⟩ (2 : Fin 3) * 32 ≤ (i 2).val
      ∧ (i 2).val < win0_2.index ⟨32 * ((i 0).val / 32) + 31, ht⟩ (2 : Fin 3) * 32 + 32
    rw [e2]; omega

/-- So the region leaves the joint histogram in its result array. -/
theorem final (c : Dev nD) : (dats m 0 c).arrAt 2 cfg0.N = joint (XA m c) (YA m c) :=
  (dats m 0 c).arrAt_eq_of_cover 2 (joint (XA m c) (YA m c)) (flushed_eq m c) (covered c)

end Cert.KernelIdeal.Acc

end
-- ==== Proof.Tail.lean ====
/-
  From the joint histogram to the loss: the arithmetic both programs perform on the [64, 32, 32]
  array of counts J, as one function.

  Per batch row: p = J / ΣJ (the sum over both cell axes), the two marginals of p (sums over one
  cell axis each), ε added to p and to both marginals, then Σ (p+ε)·log((p+ε) / ((px+ε)(py+ε)))
  over the cells; the loss is minus the mean of these 64 numbers.
-/
import proofs.«166714_j69106023792751_2_alg».proof.KernelIdeal

noncomputable section

namespace Cert.Hist

open Cert.KernelIdeal Cert.KernelIdeal.Facts₀
open Idealize.ShloMosaic

variable {F : FTy → Type} [FloatOps F] [Cert.KernelIdeal.Facts]

/-- The loss as a function of the array of counts. -/
def tail (J : FVec F S64x32x32 .f32) : FVec F S_ .f32 :=
  let p : FVec F S64x32x32 .f32 :=
    Host.divf J (broadcastInDim S64x32x32 ![0, 1, 2] bcast_S64x1x1_S64x32x32_0_1_2
      (broadcastInDim S64x1x1 ![0] bcast_S64_S64x1x1_0
        (Host.reduceAdd J (constant (F := F) S_ .f32 0x00000000#32) reducesTo_S64x32x32_S64_d1_2 h_S_)))
  let pe : FVec F S64x32x32 .f32 :=
    addf p (broadcastInDim S64x32x32 ![] bcast_S_S64x32x32 (constant (F := F) S_ .f32 0x2EDBE6FF#32))
  let pxe : FVec F S64x32x1 .f32 :=
    addf (broadcastInDim S64x32x1 ![0, 1] bcast_S64x32_S64x32x1_0_1
        (Host.reduceAdd p (constant (F := F) S_ .f32 0x00000000#32) reducesTo_S64x32x32_S64x32_d2 h_S_))
      (broadcastInDim S64x32x1 ![] bcast_S_S64x32x1 (constant (F := F) S_ .f32 0x2EDBE6FF#32))
  let pye : FVec F S64x1x32 .f32 :=
    addf (broadcastInDim S64x1x32 ![0, 2] bcast_S64x32_S64x1x32_0_2
        (Host.reduceAdd p (constant (F := F) S_ .f32 0x00000000#32) reducesTo_S64x32x32_S64x32_d1 h_S_))
      (broadcastInDim S64x1x32 ![] bcast_S_S64x1x32 (constant (F := F) S_ .f32 0x2EDBE6FF#32))
  Host.negf (Host.divf
    (Host.reduceAdd
      (Host.reduceAdd
        (mulf pe (Host.log (Host.divf pe
          (mulf (broadcastInDim S64x32x32 ![0, 1, 2] bcast_S64x32x1_S64x32x32_0_1_2 pxe)
            (broadcastInDim S64x32x32 ![0, 1, 2] bcast_S64x1x32_S64x32x32_0_1_2 pye)))))
        (constant (F := F) S_ .f32 0x00000000#32) reducesTo_S64x32x32_S64_d1_2 h_S_)
      (constant (F := F) S_ .f32 0x00000000#32) reducesTo_S64_S_d0 h_S_)
    (constant (F := F) S_ .f32 0x42800000#32))

end Cert.Hist

end
-- ==== Proof.KernelRun.lean ====
/-
  The idealized kernel's run, read: its result is the loss of the joint histogram.

  The region leaves the joint histogram of the two sample arrays in its result array; the host
  operations after the region compute the loss from that array; the sample arrays end unchanged.
-/
import proofs.«166714_j69106023792751_2_alg».proof.Proof.Invariant
import proofs.«166714_j69106023792751_2_alg».proof.Proof.Tail
import Idealize.ShloMosaic.Lib.StableHlo.Run

set_option maxRecDepth 16384

noncomputable section

namespace Cert.KernelIdeal.Acc

open Cert.KernelIdeal Cert.KernelIdeal.Gen Cert.Hist
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

set_option maxHeartbeats 8000000 in
/-- The host operations after the region turn the region's result array into the loss. -/
theorem tail_eq (c : Dev nD) :
    Pipeline.afterTail₀ cfgs (dats m) 0 (V0 m) [hostOps1] c main_v24 = tail (joint (XA m c) (YA m c)) := by
  unfold Pipeline.afterTail₀
  show StableHlo.after hostOps1 _ (Proc.devRef .tc main_v24) = _
  after_results_simp
  have hJ : Pipeline.withArrays (cfgs 0).spec c (V0 m c) (fun w => (dats m 0 c).arrAt w (cfgs 0).N) (Proc.devRef .tc main_v0)
      = joint (XA m c) (YA m c) :=
    (Pipeline.withArrays_arr spec0 launch0.win.arr_inj c _ _ 2).trans (final m c)
  rw [hJ]
  rfl

/-- The run: every weakly fair execution ends with the loss of the joint histogram in the result
    and both sample arrays as they were. -/
theorem run : θ_run defs (onTc (τ := τ) (main (F := Ideal))) ⟨m, fun _ => 0, ρ⟩ fun r => ∀ c : Dev nD,
      r.2.mem ((c.tc : Thread nD τ).loc main_v24) = tail (joint (XA m c) (YA m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v24 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.LibSegmentSum.lean ====
/-
  A scatter whose operand is a vector, whose scatter indices are a column of start positions and
  whose updates are a vector with one entry per start position (no window axes: every update is a
  single element) is a segment sum: update e lands on operand position n exactly when the e-th
  start position, read as a signed integer, equals n; a start position outside the operand drops
  its update.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- A rank-1 index built from a coordinate has that coordinate on its one axis, however the axis
    is written. -/
theorem ix1_apply_any {n : Nat} (a : Fin n) (x : Fin 1) : (ix1 a x).val = a.val := by
  match x with
  | ⟨0, _⟩ => rfl

variable {s si u : Shape}

/-- With no update window axes, every window coordinate is zero. -/
theorem window_eq_zero_of_nil (d : ScatterDims s si u) (h : d.updateWindowDims = []) (j : u.Idx)
    (a : Fin s.rank) : d.window j a = 0 := by
  unfold ScatterDims.window
  split
  · rename_i ha
    have hlt : d.sKept.idxOf a < d.updateWindowDims.length := by
      rw [d.window_length]; exact List.idxOf_lt_length_iff.2 ha
    rw [h] at hlt
    exact absurd hlt (Nat.not_lt_zero _)
  · rfl

/-- **A column scatter is a segment sum.** For an operand vector of extent `N`, a column of `E`
    start positions (scatter indices of shape `[E, 1]`, the index vector on axis 1) and `E`
    single-element updates (no update window axes, operand axis 0 inserted, start positions
    addressing operand axis 0): update `e` lands on operand position `n` exactly when the signed
    value of start position `e` is `n`. -/
theorem resultIdx?_column {N E w : Nat}
    (d : ScatterDims (⟨1, ![N]⟩ : Shape) (⟨2, ![E, 1]⟩ : Shape) (⟨1, ![E]⟩ : Shape))
    (huw : d.updateWindowDims = []) (hsd : d.scatterDimsToOperandDims = [0])
    (hiv : d.indexVectorDim = 1)
    (idx : IVec (⟨2, ![E, 1]⟩ : Shape) w) (e : Fin E) (n : Fin N) :
    d.resultIdx? (ix1 e) idx = some (ix1 n) ↔ (idx (ix2 e 0)).toInt = (n.val : Int) := by
  have hwin : ∀ a, d.window (ix1 e) a = 0 := fun a => window_eq_zero_of_nil d huw _ a
  have hstart : ∀ a, d.start (ix1 e) idx a = (idx (ix2 e 0)).toInt := by
    intro a
    obtain ⟨uw, iw, sd, iv, wf⟩ := d
    simp only at huw hsd hiv
    subst huw hsd hiv
    have ha : a = 0 := Subsingleton.elim _ _
    subst ha
    unfold ScatterDims.start
    rw [dif_pos (List.mem_singleton.2 rfl)]
    congr 2
    funext b
    match b with
    | ⟨0, _⟩ =>
      apply Fin.ext
      unfold ScatterDims.siIdx
      rw [dif_neg (by simp)]
      unfold ScatterDims.siCoord
      simp only [Fin.coe_cast]
      exact ix1_apply_any e _
    | ⟨1, _⟩ =>
      apply Fin.ext
      unfold ScatterDims.siIdx
      rw [dif_pos rfl]
      simp
  unfold ScatterDims.resultIdx?
  constructor
  · intro h
    split at h
    · rename_i hc
      have h0 := congrFun (Option.some.inj h) 0
      have hv : (d.start (ix1 e) idx 0 + d.window (ix1 e) 0).toNat = n.val := congrArg Fin.val h0
      have hc0 : 0 ≤ d.start (ix1 e) idx 0 + d.window (ix1 e) 0 := (hc 0).1
      rw [hwin, hstart] at hv hc0
      omega
    · exact absurd h (by simp)
  · intro h
    have hc : ∀ a, 0 ≤ d.start (ix1 e) idx a + d.window (ix1 e) a ∧
        d.start (ix1 e) idx a + d.window (ix1 e) a < (⟨1, ![N]⟩ : Shape).size a := by
      intro a
      have ha : a = 0 := Subsingleton.elim _ _
      subst ha
      rw [hwin, hstart, h]
      have := n.isLt
      constructor
      · omega
      · show (n.val : Int) + ((0 : Nat) : Int) < (N : Int)
        omega
    rw [dif_pos hc]
    congr 1
    funext a
    have ha : a = 0 := Subsingleton.elim _ _
    subst ha
    apply Fin.ext
    show (d.start (ix1 e) idx 0 + d.window (ix1 e) 0).toNat = n.val
    rw [hwin, hstart, h]
    omega

end Cert.Lib.SegmentSum

end
-- ==== Proof.RefJoint.lean ====
/-
  The reference's joint histogram is the specification's.

  The reference flattens the 64 × 524288 sample pairs into one list of 33554432 entries, gives
  entry (b, s) the segment number b·1024 + (bin x)·32 + (bin y) and the weight 1 or 0 according to
  whether the pair lies in the unit square, adds the weights per segment into a vector of 65536
  zeros, and reshapes that vector to 64 × 32 × 32. Because every bin is at most 31, the segment
  number determines the row and the two bins (they are its digits in base 32, above a row digit),
  so the sum landing on cell (b, i, j) is the number of positions s of row b whose pair is valid
  and falls in bins (i, j): the specification's count.
-/
import proofs.«166714_j69106023792751_2_alg».proof.Proof.Gen.ReferenceIdeal.Read
import proofs.«166714_j69106023792751_2_alg».proof.Proof.Spec
import proofs.«166714_j69106023792751_2_alg».proof.Proof.LibSegmentSum
import Idealize.ShloMosaic.Lib.ValueIdx
import Idealize.ShloMosaic.Lib.Pipeline.Value
import Idealize.ShloMosaic.PureOps.Ideal.Laws

noncomputable section

open scoped BigOperators

namespace Cert.Hist.Ref

open Cert.ReferenceIdeal Cert.ReferenceIdeal.Read Cert.ReferenceIdeal.Gen
open Idealize.ShloMosaic Idealize.ShloMosaic.ValueIdx Idealize.ShloMosaic.StableHlo

/-! ## The segment number of one entry -/

/-- The segment number the reference gives to a pair (x, y) of row b, in 32-bit arithmetic. -/
def word (b : Fin 64) (x y : EReal) : BitVec 32 :=
  IntOp.addi (IntOp.addi (IntOp.muli (BitVec.ofNat 32 b.val) 1024#32) (IntOp.muli (bin x) 32#32)) (bin y)

/-- No wrap-around: with a row below 64 and both bins at most 31 the 32-bit sum of products is
    the integer b·1024 + bx·32 + by, and it is below 2³¹, so its signed reading is that integer. -/
theorem word_toInt (b : Fin 64) (x y : EReal) :
    (word b x y).toInt = ((b.val * 1024 + (bin x).toNat * 32 + (bin y).toNat : Nat) : Int) := by
  have hb := b.isLt
  have hx := bin_le x
  have hy := bin_le y
  unfold word IntOp.addi IntOp.muli
  generalize bin x = bx at hx ⊢
  generalize bin y = bz at hy ⊢
  rw [BitVec.toInt_eq_toNat_cond]
  simp only [BitVec.toNat_add, BitVec.toNat_mul, BitVec.toNat_ofNat]
  norm_num
  omega

/-! ## The reference's entries, read at an index -/

/-- The reference's clamp of the first coordinate is the specification's bin. -/
theorem v14_eq (X : FVec Ideal S64x524288 .f32) (i : S64x524288.Idx) :
    val_main_v14 (F := Ideal) X i = bin (X i) := by
  simp only [val_main_v14_apply, val_main_call0_v4_apply, val_main_call0_v3_apply, val_main_c_4_apply,
    val_main_call0_v2_apply, val_main_call0_v1_apply, val_main_call0_v0_apply, val_main_c_apply,
    val_main_v13_apply, val_main_v12_apply, val_main_v11_apply, val_main_cst_3_apply]
  rfl

/-- The reference's clamp of the second coordinate is the specification's bin. -/
theorem v18_eq (Y : FVec Ideal S64x524288 .f32) (i : S64x524288.Idx) :
    val_main_v18 (F := Ideal) Y i = bin (Y i) := by
  simp only [val_main_v18_apply, val_main_call1_v4_apply, val_main_call1_v3_apply, val_main_c_7_apply,
    val_main_call1_v2_apply, val_main_call1_v1_apply, val_main_call1_v0_apply, val_main_c_6_apply,
    val_main_v17_apply, val_main_v16_apply, val_main_v15_apply, val_main_cst_5_apply]
  rfl

/-- The reference's segment number at position (b, s) is `word`. -/
theorem v27_eq (X Y : FVec Ideal S64x524288 .f32) (i : S64x524288.Idx) :
    val_main_v27 (F := Ideal) X Y i = word (i 0) (X i) (Y i) := by
  simp only [val_main_v27_apply, val_main_v26_apply, val_main_v25_apply, val_main_v22_apply,
    val_main_v20_apply, val_main_v19_apply, val_main_v21_apply, val_main_c_8_apply,
    val_main_v24_apply, val_main_v23_apply, val_main_c_9_apply, v14_eq, v18_eq]
  rfl

/-- The reference's validity bit is the specification's: the four comparisons joined by `and`,
    associated to the left there and pairwise here. -/
theorem v10_eq (X Y : FVec Ideal S64x524288 .f32) (i : S64x524288.Idx) :
    val_main_v10 (F := Ideal) X Y i = valid (X i) (Y i) := by
  simp only [val_main_v10_apply, val_main_v7_apply, val_main_v4_apply, val_main_v1_apply, val_main_v3_apply,
    val_main_v6_apply, val_main_v9_apply, val_main_v0_apply, val_main_v2_apply, val_main_v5_apply,
    val_main_v8_apply, val_main_cst_apply, val_main_cst_0_apply, val_main_cst_1_apply, val_main_cst_2_apply]
  unfold valid inUnit IntOp.andi
  simp only [Ideal.cmpf_def, Ideal.ofBits_def]
  rw [BitVec.and_assoc]

/-- The weight of entry (b, s): the validity bit as a number. -/
theorem v28_eq (X Y : FVec Ideal S64x524288 .f32) (i : S64x524288.Idx) :
    val_main_v28 (F := Ideal) X Y i = (((valid (X i) (Y i)).toNat : ℝ) : EReal) := by
  rw [val_main_v28_apply, v10_eq]
  rfl

/-! ## The flattened list of entries -/

/-- Position e of the flattened list is the pair (e / 524288, e % 524288), and every pair occurs
    exactly once. -/
def flatEquiv : S33554432.Idx ≃ S64x524288.Idx where
  toFun := idx_main_v29
  invFun i := ix1 ⟨(i 0).val * 524288 + (i 1).val, by
    have h0 : (i 0).val < 64 := (i 0).isLt
    have h1 : (i 1).val < 524288 := (i 1).isLt
    omega⟩
  left_inv j := by
    funext a
    match a with
    | ⟨0, _⟩ =>
      apply Fin.ext
      show ((j 0).val / 524288) * 524288 + (j 0).val % 524288 = (j 0).val
      omega
  right_inv i := by
    have h0 : (i 0).val < 64 := (i 0).isLt
    have h1 : (i 1).val < 524288 := (i 1).isLt
    funext a
    match a with
    | ⟨0, _⟩ =>
      apply Fin.ext
      show ((i 0).val * 524288 + (i 1).val) / 524288 = (i 0).val
      omega
    | ⟨1, _⟩ =>
      apply Fin.ext
      show ((i 0).val * 524288 + (i 1).val) % 524288 = (i 1).val
      omega

/-- The reference's scatter at segment n: the total weight of the entries whose segment number,
    read signed, is n. -/
theorem v33_apply (X Y : FVec Ideal S64x524288 .f32) (n : Fin 65536) :
    val_main_v33 (F := Ideal) X Y (ix1 n) =
      ∑ i : S64x524288.Idx,
        if (word (i 0) (X i) (Y i)).toInt = (n.val : Int) then (((valid (X i) (Y i)).toNat : ℝ) : EReal) else 0 := by
  have h : val_main_v33 (F := Ideal) X Y = Ideal.hostScatterAdd scatter_S65536_S33554432x1_S33554432_n_0_0_1
      (val_main_v31 (F := Ideal)) (val_main_v32 (F := Ideal) X Y) (val_main_v29 (F := Ideal) X Y) := rfl
  rw [h, Ideal.hostScatterAdd]
  rw [val_main_v31_apply, val_main_cst_10_apply, Ideal.ofBits_def, Ideal.ofBits_zero_f32, zero_add]
  rw [Finset.sum_filter]
  rw [← Equiv.sum_comp flatEquiv]
  apply Finset.sum_congr rfl
  intro j _
  obtain ⟨e, rfl⟩ : ∃ e, j = ix1 e := ⟨j 0, eq_ix1 j⟩
  have hiff := Cert.Lib.SegmentSum.resultIdx?_column scatter_S65536_S33554432x1_S33554432_n_0_0_1 rfl rfl rfl
    (val_main_v32 (F := Ideal) X Y) e n
  have hidx : val_main_v32 (F := Ideal) X Y (ix2 e 0) =
      word (flatEquiv (ix1 e) 0) (X (flatEquiv (ix1 e))) (Y (flatEquiv (ix1 e))) := by
    rw [val_main_v32_apply, val_main_v30_apply, v27_eq]
    rfl
  have hupd : val_main_v29 (F := Ideal) X Y (ix1 e) =
      (((valid (X (flatEquiv (ix1 e))) (Y (flatEquiv (ix1 e)))).toNat : ℝ) : EReal) := by
    rw [val_main_v29_apply, v28_eq]
    rfl
  rw [hidx] at hiff
  exact if_congr hiff hupd rfl

/-! ## One entry's contribution to one cell -/

/-- A 32-bit word equals the numeral of a number below 32 exactly when its value is that number. -/
theorem eq_ofNat_iff (v : BitVec 32) (k : Nat) (hk : k < 32) : v = BitVec.ofNat 32 k ↔ v.toNat = k := by
  constructor
  · intro h
    rw [h, BitVec.toNat_ofNat]
    omega
  · intro h
    apply BitVec.eq_of_toNat_eq
    rw [BitVec.toNat_ofNat, h]
    omega

/-- The segment number of a pair of row b is that of cell (q0, i, j) exactly when b = q0 and the
    pair's bins are i and j: with every bin at most 31 the bins are the two low base-32 digits. -/
theorem word_eq_cell_iff (b q0 : Fin 64) (i j : Fin 32) (x y : EReal) :
    (word b x y).toInt = (((q0.val * 32 + i.val) * 32 + j.val : Nat) : Int) ↔
      b = q0 ∧ bin x = BitVec.ofNat 32 i.val ∧ bin y = BitVec.ofNat 32 j.val := by
  have hx := bin_le x
  have hy := bin_le y
  have hi := i.isLt
  have hj := j.isLt
  rw [word_toInt, eq_ofNat_iff _ _ hi, eq_ofNat_iff _ _ hj, Fin.ext_iff]
  omega

/-- An entry of row b adds to cell (q0, i, j) what the specification says, when b = q0, and
    nothing otherwise. -/
theorem entry_eq (b q0 : Fin 64) (i j : Fin 32) (x y : EReal) :
    (if (word b x y).toInt = (((q0.val * 32 + i.val) * 32 + j.val : Nat) : Int)
      then (((valid x y).toNat : ℝ) : EReal) else 0) = if b = q0 then hit x y i j else 0 := by
  have hcond := word_eq_cell_iff b q0 i j x y
  unfold hit
  rcases BitVec.eq_zero_or_eq_one (valid x y) with hv | hv
  · rw [hv]
    have h01 : ¬ ((0#1 : BitVec 1) = 1#1) := by decide
    simp [h01]
  · rw [hv]
    have h1 : (((1#1 : BitVec 1).toNat : ℝ) : EReal) = 1 := by simp
    rw [h1]
    by_cases hb : b = q0
    · by_cases hc : bin x = BitVec.ofNat 32 i.val ∧ bin y = BitVec.ofNat 32 j.val
      · rw [if_pos (hcond.2 ⟨hb, hc⟩), if_pos hb, if_pos ⟨rfl, hc⟩]
      · rw [if_neg (fun h => hc (hcond.1 h).2), if_pos hb, if_neg (fun h => hc h.2)]
    · rw [if_neg (fun h => hb (hcond.1 h).1), if_neg hb]

/-! ## The histogram -/

/-- **The reference's joint histogram is the specification's.** -/
theorem joint_eq (X Y : FVec Ideal Cert.ReferenceIdeal.S64x524288 .f32) :
    Cert.ReferenceIdeal.Read.val_main_v34 (F := Ideal) X Y = Cert.Hist.joint X Y := by
  funext q
  obtain ⟨q0, q1, q2, rfl⟩ : ∃ (q0 : Fin 64) (q1 : Fin 32) (q2 : Fin 32), q = ix3 q0 q1 q2 :=
    ⟨q 0, q 1, q 2, eq_ix3 q⟩
  have h0 := q0.isLt
  have h1 := q1.isLt
  have h2 := q2.isLt
  have hq : idx_main_v34 (ix3 q0 q1 q2) =
      ix1 (⟨(q0.val * 32 + q1.val) * 32 + q2.val, by omega⟩ : Fin 65536) := by
    funext a
    match a with
    | ⟨0, _⟩ => rfl
  rw [val_main_v34_apply, hq, v33_apply, sum_idx2]
  calc _ = ∑ b : Fin 64, ∑ s : Fin 524288,
          (if b = q0 then hit (X (ix2 b s)) (Y (ix2 b s)) q1 q2 else 0) :=
        Finset.sum_congr rfl fun b _ => Finset.sum_congr rfl fun s _ =>
          entry_eq b q0 q1 q2 (X (ix2 b s)) (Y (ix2 b s))
    _ = ∑ s : Fin 524288, hit (X (ix2 q0 s)) (Y (ix2 q0 s)) q1 q2 := by
        rw [Finset.sum_eq_single q0]
        · exact Finset.sum_congr rfl fun s _ => if_pos rfl
        · intro b _ hb
          exact Finset.sum_eq_zero fun s _ => if_neg hb
        · intro h
          exact absurd (Finset.mem_univ _) h
    _ = Cert.Hist.joint X Y (ix3 q0 q1 q2) := rfl

end Cert.Hist.Ref

end
-- ==== Proof.RefLoss.lean ====
/-
  The reference's result is the loss of the joint histogram: after its histogram the reference
  performs the same arithmetic as the kernel's host program does after its region.
-/
import proofs.«166714_j69106023792751_2_alg».proof.Proof.RefJoint
import proofs.«166714_j69106023792751_2_alg».proof.Proof.Tail
import proofs.«166714_j69106023792751_2_alg».proof.Proof.Gen.KernelIdeal

set_option maxRecDepth 16384

noncomputable section

namespace Cert.Hist.Ref

open Cert.ReferenceIdeal Cert.ReferenceIdeal.Read
open Idealize.ShloMosaic

/-- The reference's stages after its histogram are the loss function of it. -/
theorem loss_of_hist (X Y : FVec Ideal Cert.ReferenceIdeal.S64x524288 .f32) :
    val_main_v58 (F := Ideal) X Y = Cert.Hist.tail (F := Ideal) (val_main_v34 (F := Ideal) X Y) := rfl

/-- The reference's result is the loss of the specification's joint histogram. -/
theorem loss_eq (X Y : FVec Ideal Cert.ReferenceIdeal.S64x524288 .f32) :
    val_main_v58 (F := Ideal) X Y = Cert.Hist.tail (F := Ideal) (Cert.Hist.joint X Y) := by
  rw [loss_of_hist, joint_eq]

end Cert.Hist.Ref

end
-- ==== Proof.lean ====
/-
  The certificate of a joint-histogram kernel against its scatter-add reference.

  Both programs turn two [64, 524288] sample arrays into one number, the negated mean over the 64
  batch rows of a mutual-information sum computed from each row's 32 × 32 joint histogram of its
  524288 sample pairs. They differ only in how the histogram is built:

  * the kernel walks each row in 32 grid steps of 16384 columns, each step in 4 chunks of 4096
    columns, and per chunk adds to a [32, 32, 32] accumulator the product of two one-hot
    encodings (is the pair valid with first bin i; is the second bin j) contracted over the
    chunk's columns; the accumulator is zeroed at the first step of a batch block of 32 rows and
    copied out after the last;
  * the reference numbers the cells b·1024 + i·32 + j, gives every pair the number of its cell
    and the weight 1 or 0 by validity, and adds the weights per cell number.

  Over the extended reals both are the same count of zeros and ones — `Cert.Hist.joint`
  (Proof/Spec.lean): sums of finitely many zeros and ones are re-associated and re-indexed
  freely, so no finiteness of the inputs is needed. The kernel side is Proof/Pieces.lean (one
  grid step as a pure function), Proof/StepIdeal.lean and Proof/PointSum.lean (that function at a
  cell), Proof/Invariant.lean (the induction over the grid steps and the array the region
  leaves) and Proof/KernelRun.lean (the run with the host arithmetic after the region); the
  reference side is Proof/RefJoint.lean and Proof/RefLoss.lean over the generated run of the
  reference. The arithmetic after the histogram is one function on both sides
  (Proof/Tail.lean) and is never opened.
-/
import proofs.«166714_j69106023792751_2_alg».proof.Defs
import proofs.«166714_j69106023792751_2_alg».proof.Proof.Gen.Kernel
import proofs.«166714_j69106023792751_2_alg».proof.Proof.Gen.Kernel.Frame
import proofs.«166714_j69106023792751_2_alg».proof.Proof.Gen.KernelIdeal
import proofs.«166714_j69106023792751_2_alg».proof.Proof.Gen.KernelIdeal.Frame
import proofs.«166714_j69106023792751_2_alg».proof.Proof.Gen.ReferenceIdeal
import proofs.«166714_j69106023792751_2_alg».proof.Proof.Gen.ReferenceIdeal.Run
import proofs.«166714_j69106023792751_2_alg».proof.Proof.Gen.ReferenceIdeal.Read
import proofs.«166714_j69106023792751_2_alg».proof.Proof.Gen.Pre_finite_inputs
import proofs.«166714_j69106023792751_2_alg».proof.Proof.KernelRun
import proofs.«166714_j69106023792751_2_alg».proof.Proof.RefLoss
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two sample arrays both idealized programs end with the loss of
    the joint histogram of those arrays. -/
theorem algebraic : Cert.algebraic_KernelIdeal_ReferenceIdeal := by
  intro m ρ m' ρ' _ hagree
  refine ⟨fun c => Cert.Hist.tail (Cert.Hist.joint (Cert.KernelIdeal.Acc.XA m c) (Cert.KernelIdeal.Acc.YA m c)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.Hist.Ref.loss_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
